-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S128x128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S100000 32) (main_arg2 : IVec S2x1600000 32) (main_arg3 : FVec F S4x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S100000 : Shape := ⟨1, ![100000]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x4 : Shape := ⟨2, ![100000, 4]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S1600000x1 : Shape := ⟨2, ![1600000, 1]⟩
abbrev S1600000x128 : Shape := ⟨2, ![1600000, 128]⟩

abbrev nBuf : Space → Nat
  | .hbm => 100
  | .vmem => 30
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S2x1600000, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x4, .f32⟩
  | .hbm, ⟨23, _⟩ => ⟨S1x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S1600000x1, .f32⟩
  | .hbm, ⟨40, _⟩ => ⟨S_, .f32⟩
  | .hbm, ⟨41, _⟩ => ⟨S100000x1, .f32⟩
  | .hbm, ⟨42, _⟩ => ⟨S1600000x1, .i32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .i1⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S100000x128, .i1⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000x1, .f32⟩
  | .hbm, ⟨74, _⟩ => ⟨S_, .f32⟩
  | .hbm, ⟨75, _⟩ => ⟨S100000x1, .f32⟩
  | .hbm, ⟨76, _⟩ => ⟨S1600000x1, .i32⟩
  | .hbm, ⟨77, _⟩ => ⟨S100000x1, .f32⟩
  | .hbm, ⟨78, _⟩ => ⟨S_, .f32⟩
  | .hbm, ⟨79, _⟩ => ⟨S100000x1, .f32⟩
  | .hbm, ⟨80, _⟩ => ⟨S100000x1, .i1⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S_, .f32⟩
  | .hbm, ⟨88, _⟩ => ⟨S100000x128, .i1⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_cst_16 : Ref sig .tc := ⟨.hbm, 97, rfl⟩
abbrev main_v60 : Ref sig .tc := ⟨.hbm, 98, rfl⟩
abbrev main_v61 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x3_S100000x4_d1 : Shape.Concatenates [S100000x1, S100000x3] S100000x4 1
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reducesTo_S100000x128_S128_d0 : S100000x128.ReducesTo [0] S128
  h_S_ : 0 < S_.numel
  bcast_S_S128 : S_.BroadcastsInDim S128 (![] : Fin 0 → Fin S128.rank)
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v8) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x3 : Shape := ⟨2, ![100000, 3]⟩
abbrev S100000 : Shape := ⟨1, ![100000]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x4 : Shape := ⟨2, ![100000, 4]⟩
abbrev S100000x128 : Shape := ⟨2, ![100000, 128]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 121
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S2x1600000, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x4, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S1600000x1, .f32⟩
  | .hbm, ⟨45, _⟩ => ⟨S_, .f32⟩
  | .hbm, ⟨46, _⟩ => ⟨S100000x1, .f32⟩
  | .hbm, ⟨47, _⟩ => ⟨S1600000x1, .i32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .i1⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S_, .f32⟩
  | .hbm, ⟨59, _⟩ => ⟨S100000x128, .i1⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S_, .f32⟩
  | .hbm, ⟨85, _⟩ => ⟨S1600000x1, .f32⟩
  | .hbm, ⟨86, _⟩ => ⟨S_, .f32⟩
  | .hbm, ⟨87, _⟩ => ⟨S100000x1, .f32⟩
  | .hbm, ⟨88, _⟩ => ⟨S1600000x1, .i32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .i1⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S_, .f32⟩
  | .hbm, ⟨100, _⟩ => ⟨S100000x128, .i1⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S128, .f32⟩
  | .hbm, ⟨118, _⟩ => ⟨S_, .f32⟩
  | .hbm, ⟨119, _⟩ => ⟨S128, .f32⟩
  | .hbm, ⟨120, _⟩ => ⟨S128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_cst : Ref sig .tc := ⟨.hbm, 68, rfl⟩
abbrev main_call2_v0 : Ref sig .tc := ⟨.hbm, 69, rfl⟩
abbrev main_v41 : Ref sig .tc := ⟨.hbm, 70, rfl⟩
abbrev main_c_7 : Ref sig .tc := ⟨.hbm, 71, rfl⟩
abbrev main_v42 : Ref sig .tc := ⟨.hbm, 72, rfl⟩
abbrev main_v43 : Ref sig .tc := ⟨.hbm, 73, rfl⟩
abbrev main_c_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_cst : Ref sig .tc := ⟨.hbm, 109, rfl⟩
abbrev main_call4_v0 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_cst_16 : Ref sig .tc := ⟨.hbm, 118, rfl⟩
abbrev main_v75 : Ref sig .tc := ⟨.hbm, 119, rfl⟩
abbrev main_v76 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x3_S100000x4_d1 : Shape.Concatenates [S100000x1, S100000x3] S100000x4 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results named.

  @main is thirteen segments: stretches of host operations and four block-of-rows regions. The generated frame
  certificate folds the buffer contents through them — `Gen.W0` at launch, …, `Gen.W13` at the return — and proves
  that every weakly fair execution terminates with every unscoped buffer at `Gen.W13`. Read at the two result buffers
  (the column mean and the node states) as well as at the arguments, that is the run below: the same launch over the
  same generated segments, the last boundary's contents read at two more buffers.
-/
import proofs.«119422_j16965120819430_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the column mean and the node states at the
    last boundary's contents and the argument arrays as launched. -/
theorem run_results : θ_run defs (onTc (τ := τ) (main (F := F))) ⟨m, fun _ => 0, ρ⟩ (fun r => ∀ c : Dev nD,
      r.2.mem ((c.tc : Thread nD τ).loc main_v61) = W13 m ρ c (Proc.devRef .tc main_v61)
      ∧ r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v61 (by decide)),
       h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Results

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«119422_j16965120819430_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.Layers.lean ====
/-
  The layers of the network, as whole-array functions over the extended reals.

  With `dense x W b (p, q) = (∑ k, x (p, k) · W (k, q)) + b q` (the dense layer), three layers occur:
    * `relu (dense x W b)`                        — the input projection,
    * `relu (combine a h Wl Wr b)`                — a neighbourhood-mean layer, where
          combine a h Wl Wr b (p, q) = ((∑ k, a (p, k) · Wl (k, q)) + b q) + ∑ k, h (p, k) · Wr (k, q),
    * `dense x W b`                               — the output projection,
  with `relu y = max y 0` entry by entry (the zero kept as its float word).

  A block-of-rows kernel spells `combine` as (a·Wl + h·Wr) + b, the host as (a·Wl + b) + h·Wr. Addition of extended
  reals is commutative and associative at the infinities too, so the two spellings are one function, with no
  finiteness needed. A rounding to bf16 is the identity on extended reals and both matrix products are the exact
  sum, so the other differences of spelling vanish as well.

  An entry (p, q) of each layer depends on row p of its row operands only (`*_congr`), which is what lets a block of
  rows of the result be computed from the same block of rows of the operands.
-/
import Idealize.ShloMosaic.Lib.ValueIdx
import Idealize.ShloMosaic.Lib.Pipeline.Value
import Idealize.ShloMosaic.Lib.KernelVsHost
import Idealize.ShloMosaic.PureOps.Ideal.Laws
import proofs.«119422_j16965120819430_1_alg».proof.Proof.LibDenseLayer

noncomputable section

namespace GraphLayers

open Idealize.ShloMosaic Idealize.ShloMosaic.ValueIdx DenseLayer

variable {P P' K Q : Nat}

/-- max with the float zero, entry by entry. -/
def relu {s : Shape} (y : s.Idx → EReal) : s.Idx → EReal :=
  fun i => max (y i) (Scalar.ofBits (F := Ideal) .f32 0x00000000#32)

/-- The plain product x · W, entry by entry. -/
def prod (x : (⟨2, ![P, K]⟩ : Shape).Idx → EReal) (W : (⟨2, ![K, Q]⟩ : Shape).Idx → EReal) :
    (⟨2, ![P, Q]⟩ : Shape).Idx → EReal :=
  fun i => ∑ k : Fin K, x (ix2 (n0 := P) (i 0) k) * W (ix2 k (n1 := Q) (i 1))

/-- (a · Wl + b) + h · Wr, entry by entry. -/
def combine (a h : (⟨2, ![P, K]⟩ : Shape).Idx → EReal) (Wl Wr : (⟨2, ![K, Q]⟩ : Shape).Idx → EReal) (b : Fin Q → EReal) :
    (⟨2, ![P, Q]⟩ : Shape).Idx → EReal :=
  fun i => dense a Wl b i + prod h Wr i

theorem prod_ix2 (x : (⟨2, ![P, K]⟩ : Shape).Idx → EReal) (W : (⟨2, ![K, Q]⟩ : Shape).Idx → EReal) (p : Fin P) (q : Fin Q) :
    prod x W (ix2 p q) = ∑ k : Fin K, x (ix2 p k) * W (ix2 k q) := rfl

/-- Entry (p, q) of a product reads row p of the left operand and column q of the right one. -/
theorem prod_congr {x : (⟨2, ![P, K]⟩ : Shape).Idx → EReal} {x' : (⟨2, ![P', K]⟩ : Shape).Idx → EReal}
    {W W' : (⟨2, ![K, Q]⟩ : Shape).Idx → EReal} {p : Fin P} {p' : Fin P'} {q : Fin Q}
    (hx : ∀ k, x (ix2 p k) = x' (ix2 p' k)) (hW : ∀ k, W (ix2 k q) = W' (ix2 k q)) :
    prod x W (ix2 p q) = prod x' W' (ix2 p' q) := by
  rw [prod_ix2, prod_ix2]
  exact Finset.sum_congr rfl fun k _ => by rw [hx k, hW k]

/-- Entry (p, q) of a neighbourhood-mean layer reads row p of both row operands. -/
theorem combine_congr {a h : (⟨2, ![P, K]⟩ : Shape).Idx → EReal} {a' h' : (⟨2, ![P', K]⟩ : Shape).Idx → EReal}
    {Wl Wl' Wr Wr' : (⟨2, ![K, Q]⟩ : Shape).Idx → EReal} {b b' : Fin Q → EReal} {p : Fin P} {p' : Fin P'} {q : Fin Q}
    (ha : ∀ k, a (ix2 p k) = a' (ix2 p' k)) (hh : ∀ k, h (ix2 p k) = h' (ix2 p' k))
    (hWl : ∀ k, Wl (ix2 k q) = Wl' (ix2 k q)) (hWr : ∀ k, Wr (ix2 k q) = Wr' (ix2 k q)) (hb : b q = b' q) :
    combine a h Wl Wr b (ix2 p q) = combine a' h' Wl' Wr' b' (ix2 p' q) := by
  show dense a Wl b (ix2 p q) + prod h Wr (ix2 p q) = dense a' Wl' b' (ix2 p' q) + prod h' Wr' (ix2 p' q)
  rw [dense_congr ha hWl hb, prod_congr hh hWr]

theorem relu_congr {s s' : Shape} {y : s.Idx → EReal} {y' : s'.Idx → EReal} {i : s.Idx} {i' : s'.Idx} (e : y i = y' i') :
    relu y i = relu y' i' := by
  show max (y i) _ = max (y' i') _
  rw [e]

/-! ## The kernel's spellings -/

/-- The input projection in a kernel: the product of the operands rounded to bf16 accumulated into zero, plus the row
    broadcast of a [1, Q] bias block, then the maximum with a splat of zero. -/
theorem kernel_relu_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hxx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf
      (addf (matmul d none (truncf .bf16 (shapeCast ⟨2, ![P, K]⟩ x hxx) hr) (truncf .bf16 W hr) (constant ⟨2, ![P, Q]⟩ .f32 0x00000000#32))
        (broadcastTo ⟨2, ![P, Q]⟩ (shapeCast ⟨2, ![1, Q]⟩ b hsc) hbc))
      (broadcast ⟨2, ![P, Q]⟩ (Scalar.ofBits (F := Ideal) .f32 0x00000000#32))
    = relu (dense x W (fun q => b (ix2 (0 : Fin 1) q))) := by
  rw [shapeCast_self x hxx, kernel_dense hd x W b hr hsc hbc]
  rfl

/-- The output projection in a kernel: the same without the maximum. -/
theorem kernel_dense' {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hxx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    addf (matmul d none (truncf .bf16 (shapeCast ⟨2, ![P, K]⟩ x hxx) hr) (truncf .bf16 W hr) (constant ⟨2, ![P, Q]⟩ .f32 0x00000000#32))
        (broadcastTo ⟨2, ![P, Q]⟩ (shapeCast ⟨2, ![1, Q]⟩ b hsc) hbc)
    = dense x W (fun q => b (ix2 (0 : Fin 1) q)) := by
  rw [shapeCast_self x hxx, kernel_dense hd x W b hr hsc hbc]

/-- A neighbourhood-mean layer in a kernel: the two products added first, the bias row last, then the maximum with a
    splat of zero. Moving the bias between the two products is commutativity and associativity of the sum. -/
theorem kernel_relu_combine {d : DotDims ⟨2, ![P, K]⟩ ⟨2, ![K, Q]⟩ ⟨2, ![P, Q]⟩} (hd : PlainDot.IsPlain d)
    (a h : FVec Ideal ⟨2, ![P, K]⟩ .f32) (Wl Wr : FVec Ideal ⟨2, ![K, Q]⟩ .f32) (b : FVec Ideal ⟨2, ![1, Q]⟩ .f32)
    (hr : FTy.bits .bf16 < FTy.bits .f32) (hxx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf
      (addf
        (addf (matmul d none (truncf .bf16 (shapeCast ⟨2, ![P, K]⟩ a hxx) hr) (truncf .bf16 Wl hr) (constant ⟨2, ![P, Q]⟩ .f32 0x00000000#32))
          (matmul d none (truncf .bf16 (shapeCast ⟨2, ![P, K]⟩ h hxx) hr) (truncf .bf16 Wr hr) (constant ⟨2, ![P, Q]⟩ .f32 0x00000000#32)))
        (broadcastTo ⟨2, ![P, Q]⟩ (shapeCast ⟨2, ![1, Q]⟩ b hsc) hbc))
      (broadcast ⟨2, ![P, Q]⟩ (Scalar.ofBits (F := Ideal) .f32 0x00000000#32))
    = relu (combine a h Wl Wr (fun q => b (ix2 (0 : Fin 1) q))) := by
  funext j
  obtain ⟨p, q, rfl⟩ : ∃ (p : Fin P) (q : Fin Q), j = ix2 p q := ⟨j 0, j 1, eq_ix2 j⟩
  rw [shapeCast_self a hxx, shapeCast_self h hxx]
  have e := congrFun (kernel_dense hd a Wl b hr hsc hbc) (ix2 p q)
  have m2 := PlainDot.matmul_zero_apply hd (truncf .bf16 h hr) (truncf .bf16 Wr hr) p q
  show max ((FloatOps.matmul d none (truncf .bf16 a hr) (truncf .bf16 Wl hr) (constant ⟨2, ![P, Q]⟩ .f32 0x00000000#32) (ix2 p q)
        + FloatOps.matmul d none (truncf .bf16 h hr) (truncf .bf16 Wr hr) (constant ⟨2, ![P, Q]⟩ .f32 0x00000000#32) (ix2 p q))
        + broadcastTo ⟨2, ![P, Q]⟩ (shapeCast ⟨2, ![1, Q]⟩ b hsc) hbc (ix2 p q)) _
      = max (dense a Wl (fun q => b (ix2 (0 : Fin 1) q)) (ix2 p q) + prod h Wr (ix2 p q)) _
  rw [add_right_comm, m2]
  exact congrArg (fun z => max (z + _) _) e

/-! ## The host's spellings -/

/-- The input projection on the host: the general dot product plus a length-Q bias broadcast twice, then the maximum
    with the broadcast of a zero constant. -/
theorem host_relu_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1])
    (h0 : (⟨0, ![]⟩ : Shape).BroadcastsInDim ⟨2, ![P, Q]⟩ ![]) :
    maximumf
      (addf (Host.dotGeneral d none x W) (broadcastInDim ⟨2, ![P, Q]⟩ ![0, 1] h2 (broadcastInDim ⟨2, ![1, Q]⟩ ![1] h1 b)))
      (broadcastInDim ⟨2, ![P, Q]⟩ ![] h0 (constant (F := Ideal) ⟨0, ![]⟩ .f32 0x00000000#32))
    = relu (dense x W (fun q => b (ix1 q))) := by
  rw [host_dense hd x W b h1 h2]
  rfl

/-- A neighbourhood-mean layer on the host: (a·Wl + b) + h·Wr, then the maximum with the broadcast of a zero constant. -/
theorem host_relu_combine {d : DotDims ⟨2, ![P, K]⟩ ⟨2, ![K, Q]⟩ ⟨2, ![P, Q]⟩} (hd : PlainDot.IsPlain d)
    (a h : FVec Ideal ⟨2, ![P, K]⟩ .f32) (Wl Wr : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1])
    (h0 : (⟨0, ![]⟩ : Shape).BroadcastsInDim ⟨2, ![P, Q]⟩ ![]) :
    maximumf
      (addf
        (addf (Host.dotGeneral d none a Wl) (broadcastInDim ⟨2, ![P, Q]⟩ ![0, 1] h2 (broadcastInDim ⟨2, ![1, Q]⟩ ![1] h1 b)))
        (Host.dotGeneral d none h Wr))
      (broadcastInDim ⟨2, ![P, Q]⟩ ![] h0 (constant (F := Ideal) ⟨0, ![]⟩ .f32 0x00000000#32))
    = relu (combine a h Wl Wr (fun q => b (ix1 q))) := by
  rw [host_dense hd a Wl b h1 h2]
  funext j
  obtain ⟨p, q, rfl⟩ : ∃ (p : Fin P) (q : Fin Q), j = ix2 p q := ⟨j 0, j 1, eq_ix2 j⟩
  show max (dense a Wl (fun q => b (ix1 q)) (ix2 p q) + FloatOps.dotGeneral d none .single h Wr (ix2 p q)) _
      = max (dense a Wl (fun q => b (ix1 q)) (ix2 p q) + prod h Wr (ix2 p q)) _
  rw [PlainDot.dotGeneral_apply hd]
  rfl

end GraphLayers

end
-- ==== Proof.Region0.lean ====
/-
  Region 0 of the idealized kernel: the input projection, a block of 5000 rows at each of 20 grid points.

  Whatever the buffers hold when the region is entered (`V`), the region's output array ends at
      relu (dense X W b),   X = the [100000, 4] input rows,  W = the [4, 128] weights,  b = the [1, 128] bias row:
  point t computes rows 5000·t … 5000·t + 4999 from the same rows of X (an entry of a dense layer reads one row of
  its input), the weight and bias blocks are the whole arrays at every point, and the 20 blocks tile the array.
-/
import proofs.«119422_j16965120819430_1_alg».proof.Proof.Gen.KernelIdeal.Frame
import proofs.«119422_j16965120819430_1_alg».proof.Proof.Layers

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open GraphLayers DenseLayer

variable (V : (c : Dev nD) → (b : Ref sig .tc) → Buf (Elt Ideal) ((c : Thread nD τ).loc b))

theorem zero_offsets : (![0, 0] : Fin 2 → Nat) = fun _ => 0 := funext fun a => by fin_cases a <;> rfl

/-- The kernel's product is a plain one: rows × contraction times contraction × columns. -/
theorem plain : PlainDot.IsPlain (P := 5000) (K := 4) (Q := 128) dot_S5000x4_S4x128_S5000x128_1_0_0_1_n_n :=
  ⟨rfl, rfl, rfl, rfl, rfl, rfl⟩

/-- The body's stored value is the layer of its three loaded blocks. -/
theorem payload (x0 : Vec Ideal S5000x4 .f32) (x1 : Vec Ideal S4x128 .f32) (x2 : Vec Ideal S1x128 .f32) :
    k0_pay1 (F := Ideal) x0 x1 x2 = relu (dense (P := 5000) (K := 4) (Q := 128) x0 x1 (fun q => x2 (ix2 (0 : Fin 1) q))) := by
  unfold k0_pay1
  exact kernel_relu_dense plain x0 x1 x2 _ _ _ _

/-- Row p of a block is row r of the array: then the layer of the blocks at (p, q) is the layer of the arrays at (r, q). -/
theorem block_entry (X : S100000x4.Idx → EReal) (W : S4x128.Idx → EReal) (B : S1x128.Idx → EReal)
    (x0 : S5000x4.Idx → EReal) (x1 : S4x128.Idx → EReal) (x2 : S1x128.Idx → EReal)
    (p : Fin 5000) (q : Fin 128) (r : Fin 100000)
    (hx : ∀ k : Fin 4, x0 (ix2 p k) = X (ix2 r k)) (hW : ∀ k : Fin 4, x1 (ix2 k q) = W (ix2 k q))
    (hb : x2 (ix2 (0 : Fin 1) q) = B (ix2 (0 : Fin 1) q)) :
    relu (dense (P := 5000) (K := 4) (Q := 128) x0 x1 (fun q => x2 (ix2 (0 : Fin 1) q))) (ix2 p q)
      = relu (dense (P := 100000) (K := 4) (Q := 128) X W (fun q => B (ix2 (0 : Fin 1) q))) (ix2 r q) :=
  relu_congr (dense_congr hx hW hb)

/-- The printed index maps, decided over the grid: the row windows move with the point, the others stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem index_onto : ∀ q0 : Fin 20, ∃ t : Fin cfg0.N, win0_3.index t = ![q0.val, 0] :=
  (by decide +kernel : ∀ q0 : Fin 20, ∃ t : Fin grid0.N, win0_3.index t = ![q0.val, 0])

/-- The whole-array value of the region's output. -/
abbrev layer (c : Dev nD) : S100000x128.Idx → EReal :=
  relu (dense (P := 100000) (K := 4) (Q := 128) (V c main_v8) (V c main_arg3) (fun q => V c main_v9 (ix2 (0 : Fin 1) q)))

/-- What point t writes back is block t of the layer of the arrays as the region finds them. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero zero_offsets]
  simp only [View.ld_unit_zero (S := S5000x4) zero_offsets, View.ld_unit_zero (S := S4x128) zero_offsets,
    View.ld_unit_zero (S := S1x128) zero_offsets]
  rw [payload]
  obtain ⟨e00, e01, e10, e11, e20, e21, e30, e31⟩ := index_maps t
  have ht : t.val < 20 := Nat.lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hq : q.val < 128 := q.isLt
  have h3 : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show relu (dense (P := 5000) (K := 4) (Q := 128) (iblk0 V c 0 t) (iblk0 V c 1 t) (fun q => iblk0 V c 2 t (ix2 (0 : Fin 1) q))) (ix2 p q)
      = layer V c (((cfg0.win 3).blk t).view.emb (ix2 p q))
  rw [h3]
  refine block_entry (V c main_v8) (V c main_arg3) (V c main_v9) (iblk0 V c 0 t) (iblk0 V c 1 t) (iblk0 V c 2 t) p q _ ?_ ?_ ?_
  · intro k
    have hk : k.val < 4 := k.isLt
    show V c main_v8 (((cfg0.win 0).blk t).view.emb (ix2 p k)) = V c main_v8 (ix2 (⟨t.val * 5000 + p.val, by omega⟩ : Fin 100000) k)
    refine congrArg (V c main_v8) (funext fun a => Fin.ext ?_)
    match a with
    | ⟨0, _⟩ => show win0_0.index t (0 : Fin 2) * 5000 + 1 * p.val = t.val * 5000 + p.val; omega
    | ⟨1, _⟩ => show win0_0.index t (1 : Fin 2) * 4 + 1 * k.val = k.val; omega
  · intro k
    have hk : k.val < 4 := k.isLt
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 4 + 1 * k.val = k.val; omega
    | ⟨1, _⟩ => show win0_1.index t (1 : Fin 2) * 128 + 1 * q.val = q.val; omega
  · show V c main_v9 (((cfg0.win 2).blk t).view.emb (ix2 (0 : Fin 1) q)) = V c main_v9 (ix2 (0 : Fin 1) q)
    refine congrArg (V c main_v9) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v10).slice (win0_3.rect t)).set ↔ _
  rw [View.set_slice_whole, Rect.mem_set_unit]
  exact Iff.rfl

/-- The blocks tile the array: row r is in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the region: the layer of the arrays as the region finds them. -/
theorem final (c : Dev nD) : (dat0 V c).arrAt 3 cfg0.N = layer V c :=
  (dat0 V c).arrAt_eq_of_cover 3 (layer V c) (fun t _ => flushed_eq V c t) cover

end Cert.KernelIdeal.Region0

end
-- ==== Proof.Region1.lean ====
/-
  Region 1 of the idealized kernel: the first neighbourhood-mean layer, a block of 5000 rows at each of 20 grid points.

  Whatever the buffers hold when the region is entered (`V`), the region's output array ends at
      relu (combine A H Wl Wr b),   A = the [100000, 128] neighbourhood means,  H = the [100000, 128] hidden rows,
  Wl, Wr the two [128, 128] weights and b the [1, 128] bias row: point t computes rows 5000·t … 5000·t + 4999 from the
  same rows of A and H, the weight and bias blocks are the whole arrays at every point, and the 20 blocks tile the array.
-/
import proofs.«119422_j16965120819430_1_alg».proof.Proof.Gen.KernelIdeal.Frame
import proofs.«119422_j16965120819430_1_alg».proof.Proof.Layers

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open GraphLayers DenseLayer

variable (V : (c : Dev nD) → (b : Ref sig .tc) → Buf (Elt Ideal) ((c : Thread nD τ).loc b))

theorem zero_offsets : (![0, 0] : Fin 2 → Nat) = fun _ => 0 := funext fun a => by fin_cases a <;> rfl

/-- The kernel's products are plain ones: rows × contraction times contraction × columns. -/
theorem plain : PlainDot.IsPlain (P := 5000) (K := 128) (Q := 128) dot_S5000x128_S128x128_S5000x128_1_0_0_1_n_n :=
  ⟨rfl, rfl, rfl, rfl, rfl, rfl⟩

/-- The body's stored value is the layer of its five loaded blocks. -/
theorem payload (x0 x1 : Vec Ideal S5000x128 .f32) (x2 x3 : Vec Ideal S128x128 .f32) (x4 : Vec Ideal S1x128 .f32) :
    k1_pay1 (F := Ideal) x0 x1 x2 x3 x4
      = relu (combine (P := 5000) (K := 128) (Q := 128) x0 x1 x2 x3 (fun q => x4 (ix2 (0 : Fin 1) q))) := by
  unfold k1_pay1
  exact kernel_relu_combine plain x0 x1 x2 x3 x4 _ _ _ _

/-- Row p of the row blocks is row r of the arrays: then the layer of the blocks at (p, q) is the layer of the arrays at (r, q). -/
theorem block_entry (A H : S100000x128.Idx → EReal) (Wl Wr : S128x128.Idx → EReal) (B : S1x128.Idx → EReal)
    (x0 x1 : S5000x128.Idx → EReal) (x2 x3 : S128x128.Idx → EReal) (x4 : S1x128.Idx → EReal)
    (p : Fin 5000) (q : Fin 128) (r : Fin 100000)
    (ha : ∀ k : Fin 128, x0 (ix2 p k) = A (ix2 r k)) (hh : ∀ k : Fin 128, x1 (ix2 p k) = H (ix2 r k))
    (hWl : ∀ k : Fin 128, x2 (ix2 k q) = Wl (ix2 k q)) (hWr : ∀ k : Fin 128, x3 (ix2 k q) = Wr (ix2 k q))
    (hb : x4 (ix2 (0 : Fin 1) q) = B (ix2 (0 : Fin 1) q)) :
    relu (combine (P := 5000) (K := 128) (Q := 128) x0 x1 x2 x3 (fun q => x4 (ix2 (0 : Fin 1) q))) (ix2 p q)
      = relu (combine (P := 100000) (K := 128) (Q := 128) A H Wl Wr (fun q => B (ix2 (0 : Fin 1) q))) (ix2 r q) :=
  relu_congr (combine_congr ha hh hWl hWr hb)

/-- The printed index maps, decided over the grid: the row windows move with the point, the others stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of rows is some point's. -/
theorem index_onto : ∀ q0 : Fin 20, ∃ t : Fin cfg1.N, win1_5.index t = ![q0.val, 0] :=
  (by decide +kernel : ∀ q0 : Fin 20, ∃ t : Fin grid1.N, win1_5.index t = ![q0.val, 0])

/-- The whole-array value of the region's output. -/
abbrev layer (c : Dev nD) : S100000x128.Idx → EReal :=
  relu (combine (P := 100000) (K := 128) (Q := 128) (V c main_v31) (V c main_v10) (V c main_arg5) (V c main_arg7)
    (fun q => V c main_v32 (ix2 (0 : Fin 1) q)))

/-- What point t writes back is block t of the layer of the arrays as the region finds them. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [payload]
  obtain ⟨e00, e01, e10, e11, e20, e21, e30, e31, e40, e41, e50, e51⟩ := index_maps t
  have ht : t.val < 20 := Nat.lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hq : q.val < 128 := q.isLt
  have h5 : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show relu (combine (P := 5000) (K := 128) (Q := 128) (iblk1 V c 0 t) (iblk1 V c 1 t) (iblk1 V c 2 t) (iblk1 V c 3 t)
        (fun q => iblk1 V c 4 t (ix2 (0 : Fin 1) q))) (ix2 p q)
      = layer V c (((cfg1.win 5).blk t).view.emb (ix2 p q))
  rw [h5]
  refine block_entry (V c main_v31) (V c main_v10) (V c main_arg5) (V c main_arg7) (V c main_v32)
    (iblk1 V c 0 t) (iblk1 V c 1 t) (iblk1 V c 2 t) (iblk1 V c 3 t) (iblk1 V c 4 t) p q _ ?_ ?_ ?_ ?_ ?_
  · intro k
    have hk : k.val < 128 := k.isLt
    show V c main_v31 (((cfg1.win 0).blk t).view.emb (ix2 p k)) = V c main_v31 (ix2 (⟨t.val * 5000 + p.val, by omega⟩ : Fin 100000) k)
    refine congrArg (V c main_v31) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    have hk : k.val < 128 := k.isLt
    show V c main_v10 (((cfg1.win 1).blk t).view.emb (ix2 p k)) = V c main_v10 (ix2 (⟨t.val * 5000 + p.val, by omega⟩ : Fin 100000) k)
    refine congrArg (V c main_v10) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k
    have hk : k.val < 128 := k.isLt
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k
    have hk : k.val < 128 := k.isLt
    show V c main_arg7 (((cfg1.win 3).blk t).view.emb (ix2 k q)) = V c main_arg7 (ix2 k q)
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v32 (((cfg1.win 4).blk t).view.emb (ix2 (0 : Fin 1) q)) = V c main_v32 (ix2 (0 : Fin 1) q)
    refine congrArg (V c main_v32) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v33).slice (win1_5.rect t)).set ↔ _
  rw [View.set_slice_whole, Rect.mem_set_unit]
  exact Iff.rfl

/-- The blocks tile the array: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the layer of the arrays as the region finds them. -/
theorem final (c : Dev nD) : (dat1 V c).arrAt 5 cfg1.N = layer V c :=
  (dat1 V c).arrAt_eq_of_cover 5 (layer V c) (fun t _ => flushed_eq V c t) cover

end Cert.KernelIdeal.Region1

end
-- ==== Proof.Region2.lean ====
/-
  Region 2 of the idealized kernel: the second neighbourhood-mean layer, a block of 5000 rows at each of 20 grid points.

  Whatever the buffers hold when the region is entered (`V`), the region's output array ends at
      relu (combine A H Wl Wr b),   A = the [100000, 128] neighbourhood means,  H = the [100000, 128] hidden rows,
  Wl, Wr the two [128, 128] weights and b the [1, 128] bias row: point t computes rows 5000·t … 5000·t + 4999 from the
  same rows of A and H, the weight and bias blocks are the whole arrays at every point, and the 20 blocks tile the array.
-/
import proofs.«119422_j16965120819430_1_alg».proof.Proof.Gen.KernelIdeal.Frame
import proofs.«119422_j16965120819430_1_alg».proof.Proof.Layers

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open GraphLayers DenseLayer

variable (V : (c : Dev nD) → (b : Ref sig .tc) → Buf (Elt Ideal) ((c : Thread nD τ).loc b))

theorem zero_offsets : (![0, 0] : Fin 2 → Nat) = fun _ => 0 := funext fun a => by fin_cases a <;> rfl

/-- The kernel's products are plain ones: rows × contraction times contraction × columns. -/
theorem plain : PlainDot.IsPlain (P := 5000) (K := 128) (Q := 128) dot_S5000x128_S128x128_S5000x128_1_0_0_1_n_n :=
  ⟨rfl, rfl, rfl, rfl, rfl, rfl⟩

/-- The body's stored value is the layer of its five loaded blocks. -/
theorem payload (x0 x1 : Vec Ideal S5000x128 .f32) (x2 x3 : Vec Ideal S128x128 .f32) (x4 : Vec Ideal S1x128 .f32) :
    k2_pay1 (F := Ideal) x0 x1 x2 x3 x4
      = relu (combine (P := 5000) (K := 128) (Q := 128) x0 x1 x2 x3 (fun q => x4 (ix2 (0 : Fin 1) q))) := by
  unfold k2_pay1
  exact kernel_relu_combine plain x0 x1 x2 x3 x4 _ _ _ _

/-- Row p of the row blocks is row r of the arrays: then the layer of the blocks at (p, q) is the layer of the arrays at (r, q). -/
theorem block_entry (A H : S100000x128.Idx → EReal) (Wl Wr : S128x128.Idx → EReal) (B : S1x128.Idx → EReal)
    (x0 x1 : S5000x128.Idx → EReal) (x2 x3 : S128x128.Idx → EReal) (x4 : S1x128.Idx → EReal)
    (p : Fin 5000) (q : Fin 128) (r : Fin 100000)
    (ha : ∀ k : Fin 128, x0 (ix2 p k) = A (ix2 r k)) (hh : ∀ k : Fin 128, x1 (ix2 p k) = H (ix2 r k))
    (hWl : ∀ k : Fin 128, x2 (ix2 k q) = Wl (ix2 k q)) (hWr : ∀ k : Fin 128, x3 (ix2 k q) = Wr (ix2 k q))
    (hb : x4 (ix2 (0 : Fin 1) q) = B (ix2 (0 : Fin 1) q)) :
    relu (combine (P := 5000) (K := 128) (Q := 128) x0 x1 x2 x3 (fun q => x4 (ix2 (0 : Fin 1) q))) (ix2 p q)
      = relu (combine (P := 100000) (K := 128) (Q := 128) A H Wl Wr (fun q => B (ix2 (0 : Fin 1) q))) (ix2 r q) :=
  relu_congr (combine_congr ha hh hWl hWr hb)

/-- The printed index maps, decided over the grid: the row windows move with the point, the others stay. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block of rows is some point's. -/
theorem index_onto : ∀ q0 : Fin 20, ∃ t : Fin cfg2.N, win2_5.index t = ![q0.val, 0] :=
  (by decide +kernel : ∀ q0 : Fin 20, ∃ t : Fin grid2.N, win2_5.index t = ![q0.val, 0])

/-- The whole-array value of the region's output. -/
abbrev layer (c : Dev nD) : S100000x128.Idx → EReal :=
  relu (combine (P := 100000) (K := 128) (Q := 128) (V c main_v54) (V c main_v33) (V c main_arg8) (V c main_arg10)
    (fun q => V c main_v55 (ix2 (0 : Fin 1) q)))

/-- What point t writes back is block t of the layer of the arrays as the region finds them. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  rw [payload]
  obtain ⟨e00, e01, e10, e11, e20, e21, e30, e31, e40, e41, e50, e51⟩ := index_maps t
  have ht : t.val < 20 := Nat.lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hq : q.val < 128 := q.isLt
  have h5 : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show relu (combine (P := 5000) (K := 128) (Q := 128) (iblk2 V c 0 t) (iblk2 V c 1 t) (iblk2 V c 2 t) (iblk2 V c 3 t)
        (fun q => iblk2 V c 4 t (ix2 (0 : Fin 1) q))) (ix2 p q)
      = layer V c (((cfg2.win 5).blk t).view.emb (ix2 p q))
  rw [h5]
  refine block_entry (V c main_v54) (V c main_v33) (V c main_arg8) (V c main_arg10) (V c main_v55)
    (iblk2 V c 0 t) (iblk2 V c 1 t) (iblk2 V c 2 t) (iblk2 V c 3 t) (iblk2 V c 4 t) p q _ ?_ ?_ ?_ ?_ ?_
  · intro k
    have hk : k.val < 128 := k.isLt
    show V c main_v54 (((cfg2.win 0).blk t).view.emb (ix2 p k)) = V c main_v54 (ix2 (⟨t.val * 5000 + p.val, by omega⟩ : Fin 100000) k)
    refine congrArg (V c main_v54) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    have hk : k.val < 128 := k.isLt
    show V c main_v33 (((cfg2.win 1).blk t).view.emb (ix2 p k)) = V c main_v33 (ix2 (⟨t.val * 5000 + p.val, by omega⟩ : Fin 100000) k)
    refine congrArg (V c main_v33) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · intro k
    have hk : k.val < 128 := k.isLt
    show V c main_arg8 (((cfg2.win 2).blk t).view.emb (ix2 k q)) = V c main_arg8 (ix2 k q)
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro k
    have hk : k.val < 128 := k.isLt
    show V c main_arg10 (((cfg2.win 3).blk t).view.emb (ix2 k q)) = V c main_arg10 (ix2 k q)
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v55 (((cfg2.win 4).blk t).view.emb (ix2 (0 : Fin 1) q)) = V c main_v55 (ix2 (0 : Fin 1) q)
    refine congrArg (V c main_v55) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

/-- An index of the array is in point t's block iff each coordinate is in the block's range on its axis. -/
theorem mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v56).slice (win2_5.rect t)).set ↔ _
  rw [View.set_slice_whole, Rect.mem_set_unit]
  exact Iff.rfl

/-- The blocks tile the array: row r is in the block of point r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after the region: the layer of the arrays as the region finds them. -/
theorem final (c : Dev nD) : (dat2 V c).arrAt 5 cfg2.N = layer V c :=
  (dat2 V c).arrAt_eq_of_cover 5 (layer V c) (fun t _ => flushed_eq V c t) cover

end Cert.KernelIdeal.Region2

end
-- ==== Proof.Region3.lean ====
/-
  Region 3 of the idealized kernel: the output projection, a block of 5000 rows at each of 20 grid points.

  Whatever the buffers hold when the region is entered (`V`), the region's output array ends at
      dense H W b,   H = the [100000, 128] hidden rows,  W = the [128, 128] weights,  b = the [1, 128] bias row:
  point t computes rows 5000·t … 5000·t + 4999 from the same rows of X (an entry of a dense layer reads one row of
  its input), the weight and bias blocks are the whole arrays at every point, and the 20 blocks tile the array.
-/
import proofs.«119422_j16965120819430_1_alg».proof.Proof.Gen.KernelIdeal.Frame
import proofs.«119422_j16965120819430_1_alg».proof.Proof.Layers

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open GraphLayers DenseLayer

variable (V : (c : Dev nD) → (b : Ref sig .tc) → Buf (Elt Ideal) ((c : Thread nD τ).loc b))

theorem zero_offsets : (![0, 0] : Fin 2 → Nat) = fun _ => 0 := funext fun a => by fin_cases a <;> rfl

/-- The kernel's product is a plain one: rows × contraction times contraction × columns. -/
theorem plain : PlainDot.IsPlain (P := 5000) (K := 128) (Q := 128) dot_S5000x128_S128x128_S5000x128_1_0_0_1_n_n :=
  ⟨rfl, rfl, rfl, rfl, rfl, rfl⟩

/-- The body's stored value is the layer of its three loaded blocks. -/
theorem payload (x0 : Vec Ideal S5000x128 .f32) (x1 : Vec Ideal S128x128 .f32) (x2 : Vec Ideal S1x128 .f32) :
    k3_pay1 (F := Ideal) x0 x1 x2 = (dense (P := 5000) (K := 128) (Q := 128) x0 x1 (fun q => x2 (ix2 (0 : Fin 1) q))) := by
  unfold k3_pay1
  exact kernel_dense' plain x0 x1 x2 _ _ _ _

/-- Row p of a block is row r of the array: then the layer of the blocks at (p, q) is the layer of the arrays at (r, q). -/
theorem block_entry (X : S100000x128.Idx → EReal) (W : S128x128.Idx → EReal) (B : S1x128.Idx → EReal)
    (x0 : S5000x128.Idx → EReal) (x1 : S128x128.Idx → EReal) (x2 : S1x128.Idx → EReal)
    (p : Fin 5000) (q : Fin 128) (r : Fin 100000)
    (hx : ∀ k : Fin 128, x0 (ix2 p k) = X (ix2 r k)) (hW : ∀ k : Fin 128, x1 (ix2 k q) = W (ix2 k q))
    (hb : x2 (ix2 (0 : Fin 1) q) = B (ix2 (0 : Fin 1) q)) :
    (dense (P := 5000) (K := 128) (Q := 128) x0 x1 (fun q => x2 (ix2 (0 : Fin 1) q))) (ix2 p q)
      = (dense (P := 100000) (K := 128) (Q := 128) X W (fun q => B (ix2 (0 : Fin 1) q))) (ix2 r q) :=
  dense_congr hx hW hb

/-- The printed index maps, decided over the grid: the row windows move with the point, the others stay. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every block of rows is some point's. -/
theorem index_onto : ∀ q0 : Fin 20, ∃ t : Fin cfg3.N, win3_3.index t = ![q0.val, 0] :=
  (by decide +kernel : ∀ q0 : Fin 20, ∃ t : Fin grid3.N, win3_3.index t = ![q0.val, 0])

/-- The whole-array value of the region's output. -/
abbrev layer (c : Dev nD) : S100000x128.Idx → EReal :=
  (dense (P := 100000) (K := 128) (Q := 128) (V c main_v56) (V c main_arg11) (fun q => V c main_v57 (ix2 (0 : Fin 1) q)))

/-- What point t writes back is block t of the layer of the arrays as the region finds them. -/
theorem flushed_eq (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S128x128) zero_offsets,
    View.ld_unit_zero (S := S1x128) zero_offsets]
  rw [payload]
  obtain ⟨e00, e01, e10, e11, e20, e21, e30, e31⟩ := index_maps t
  have ht : t.val < 20 := Nat.lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hq : q.val < 128 := q.isLt
  have h3 : ((cfg3.win 3).blk t).view.emb (ix2 p q) = ix2 (⟨t.val * 5000 + p.val, by omega⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show (dense (P := 5000) (K := 128) (Q := 128) (iblk3 V c 0 t) (iblk3 V c 1 t) (fun q => iblk3 V c 2 t (ix2 (0 : Fin 1) q))) (ix2 p q)
      = layer V c (((cfg3.win 3).blk t).view.emb (ix2 p q))
  rw [h3]
  refine block_entry (V c main_v56) (V c main_arg11) (V c main_v57) (iblk3 V c 0 t) (iblk3 V c 1 t) (iblk3 V c 2 t) p q _ ?_ ?_ ?_
  · intro k
    have hk : k.val < 128 := k.isLt
    show V c main_v56 (((cfg3.win 0).blk t).view.emb (ix2 p k)) = V c main_v56 (ix2 (⟨t.val * 5000 + p.val, by omega⟩ : Fin 100000) k)
    refine congrArg (V c main_v56) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k
    have hk : k.val < 128 := k.isLt
    show V c main_arg11 (((cfg3.win 1).blk t).view.emb (ix2 k q)) = V c main_arg11 (ix2 k q)
    refine congrArg (V c main_arg11) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show V c main_v57 (((cfg3.win 2).blk t).view.emb (ix2 (0 : Fin 1) q)) = V c main_v57 (ix2 (0 : Fin 1) q)
    refine congrArg (V c main_v57) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega

/-- An index of the array is in point t's block iff each coordinate is in the block's range on its axis. -/
theorem mem_block (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v58).slice (win3_3.rect t)).set ↔ _
  rw [View.set_slice_whole, Rect.mem_set_unit]
  exact Iff.rfl

/-- The blocks tile the array: row r is in the block of point r / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY after the region: the layer of the arrays as the region finds them. -/
theorem final (c : Dev nD) : (dat3 V c).arrAt 3 cfg3.N = layer V c :=
  (dat3 V c).arrAt_eq_of_cover 3 (layer V c) (fun t _ => flushed_eq V c t) cover

end Cert.KernelIdeal.Region3

end
-- ==== Proof.HostFns.lean ====
/-
  The whole computation as one composed function of the thirteen argument arrays, over the extended reals.

  Both programs compute, in this order:
    * the node input  x = [atomic_number / 10 | pos]                         ([100000, 4]),
    * h0 = relu (x · W_in + b_in),
    * twice: the mean over each node's incoming edges of the rows of h (zero where a node has no incoming edge),
      then  h' = relu ((mean · W_l + b) + h · W_r),
    * the node states  h2 · W_out + b_out, and their mean over the nodes.
  The node input, the neighbourhood mean and the column mean are the same host operations in both programs; they are
  named here once (`nodeInput`, `neighbourMean`, `columnMean`), as the operations the reference prints, and never
  opened. The layers between them are `GraphLayers`' whole-array functions; this file also spells them the way the host
  program does and shows the two spellings equal.
-/
import proofs.«119422_j16965120819430_1_alg».proof.Proof.Gen.ReferenceIdeal
import proofs.«119422_j16965120819430_1_alg».proof.Proof.Layers

noncomputable section

namespace Cert.Network

open Cert.ReferenceIdeal Cert.ReferenceIdeal.Gen
open Idealize.ShloMosaic Idealize.ShloMosaic.ValueIdx
open GraphLayers DenseLayer

/-! ## The shared host functions -/

/-- Row 0 of the edge list: the source node of each edge. -/
def src (e : IVec S2x1600000 32) : IVec S1600000 32 :=
  shapeCast S1600000 (extractStridedSlice S1x1600000 ![0, 0] e slices_S2x1600000_S1x1600000_0_0) shapeCasts_S1x1600000_S1600000

/-- Row 1 of the edge list: the destination node of each edge. -/
def dst (e : IVec S2x1600000 32) : IVec S1600000 32 :=
  shapeCast S1600000 (extractStridedSlice S1x1600000 ![1, 0] e slices_S2x1600000_S1x1600000_1_0) shapeCasts_S1x1600000_S1600000

/-- The node input: the atomic number over ten, then the three coordinates. -/
def nodeInput (z : IVec S100000 32) (pos : FVec Ideal S100000x3 .f32) : FVec Ideal S100000x4 .f32 :=
  concatenate S100000x4 1
    [⟨S100000x1, broadcastInDim S100000x1 ![0] bcast_S100000_S100000x1_0
        (Host.divf (sitofp (F := Ideal) .f32 z) (broadcastInDim S100000 ![] bcast_S_S100000 (constant (F := Ideal) S_ .f32 0x41200000#32)))⟩,
     ⟨S100000x3, pos⟩] concatenates_S100000x1_S100000x3_S100000x4_d1

/-- The number of incoming edges of each node, as a float column, from the destination column of the edge list. -/
def inDegreeOf (d : IVec S1600000 32) : FVec Ideal S100000x1 .f32 :=
  Host.scatterAdd scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 d)
    (broadcastInDim S1600000x1 ![] bcast_S_S1600000x1 (constant (F := Ideal) S_ .f32 0x3F800000#32))

/-- The sum over each node's incoming edges of the source node's row of h (a negative source index counted from the end). -/
def neighbourSumOf (h : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32)))
          s)))

/-- The mean over each node's incoming edges: the sum over the in-degree (at least one), and zero where there is none. -/
def neighbourMeanOf (h : FVec Ideal S100000x128 .f32) (s d : IVec S1600000 32) : FVec Ideal S100000x128 .f32 :=
  select
    (broadcastInDim S100000x128 ![0, 1] bcast_S100000x1_S100000x128_0_1
      (cmpf (F := Ideal) .ogt (inDegreeOf d) (broadcastInDim S100000x1 ![] bcast_S_S100000x1 (constant (F := Ideal) S_ .f32 0x00000000#32))))
    (Host.divf (neighbourSumOf h s d)
      (broadcastInDim S100000x128 ![0, 1] bcast_S100000x1_S100000x128_0_1
        (maximumf (inDegreeOf d) (broadcastInDim S100000x1 ![] bcast_S_S100000x1 (constant (F := Ideal) S_ .f32 0x3F800000#32)))))
    (broadcastInDim S100000x128 ![] bcast_S_S100000x128 (id (constant (F := Ideal) S_ .f32 0x00000000#32)))

/-- The same from the edge list. -/
def neighbourMean (h : FVec Ideal S100000x128 .f32) (e : IVec S2x1600000 32) : FVec Ideal S100000x128 .f32 :=
  neighbourMeanOf h (src e) (dst e)

/-- The mean over the nodes of each column. -/
def columnMean (o : FVec Ideal S100000x128 .f32) : FVec Ideal S128 .f32 :=
  Host.divf (Host.reduceAdd o (constant (F := Ideal) S_ .f32 0x00000000#32) reducesTo_S100000x128_S128_d0 h_S_)
    (broadcastInDim S128 ![] bcast_S_S128 (constant (F := Ideal) S_ .f32 0x47C35000#32))

/-! ## The layers, as whole-array functions -/

/-- The hidden state after the input projection. -/
def hidden0 (x : FVec Ideal S100000x4 .f32) (W : FVec Ideal S4x128 .f32) (b : FVec Ideal S128 .f32) : FVec Ideal S100000x128 .f32 :=
  relu (dense (P := 100000) (K := 4) (Q := 128) x W (fun q => b (ix1 q)))

/-- One neighbourhood-mean layer. -/
def meanLayer (h : FVec Ideal S100000x128 .f32) (e : IVec S2x1600000 32) (Wl : FVec Ideal S128x128 .f32)
    (b : FVec Ideal S128 .f32) (Wr : FVec Ideal S128x128 .f32) : FVec Ideal S100000x128 .f32 :=
  relu (combine (P := 100000) (K := 128) (Q := 128) (neighbourMean h e) h Wl Wr (fun q => b (ix1 q)))

/-- The output projection. -/
def outLayer (h : FVec Ideal S100000x128 .f32) (W : FVec Ideal S128x128 .f32) (b : FVec Ideal S128 .f32) : FVec Ideal S100000x128 .f32 :=
  dense (P := 100000) (K := 128) (Q := 128) h W (fun q => b (ix1 q))

/-- THE NODE STATES as one function of the argument arrays. -/
def nodeStates (pos : FVec Ideal S100000x3 .f32) (z : IVec S100000 32) (e : IVec S2x1600000 32)
    (Win : FVec Ideal S4x128 .f32) (bin : FVec Ideal S128 .f32)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (Wout : FVec Ideal S128x128 .f32) (bout : FVec Ideal S128 .f32) : FVec Ideal S100000x128 .f32 :=
  outLayer (meanLayer (meanLayer (hidden0 (nodeInput z pos) Win bin) e W1l b1 W1r) e W2l b2 W2r) Wout bout

/-! ## The host's spelling of the layers -/

theorem plain4 : PlainDot.IsPlain (P := 100000) (K := 4) (Q := 128) dot_S100000x4_S4x128_S100000x128_1_0_0_1_n_n :=
  ⟨rfl, rfl, rfl, rfl, rfl, rfl⟩

theorem plain128 : PlainDot.IsPlain (P := 100000) (K := 128) (Q := 128) dot_S100000x128_S128x128_S100000x128_1_0_0_1_n_n :=
  ⟨rfl, rfl, rfl, rfl, rfl, rfl⟩

/-- The input projection as the host prints it. -/
def hidden0Host (x : FVec Ideal S100000x4 .f32) (W : FVec Ideal S4x128 .f32) (b : FVec Ideal S128 .f32) : FVec Ideal S100000x128 .f32 :=
  maximumf
    (addf (Host.dotGeneral dot_S100000x4_S4x128_S100000x128_1_0_0_1_n_n none x W)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

theorem hidden0Host_eq (x : FVec Ideal S100000x4 .f32) (W : FVec Ideal S4x128 .f32) (b : FVec Ideal S128 .f32) :
    hidden0Host x W b = hidden0 x W b :=
  host_relu_dense plain4 x W b bcast_S128_S1x128_1 bcast_S1x128_S100000x128_0_1 bcast_S_S100000x128

/-- A neighbourhood-mean layer as the host prints it. -/
def meanLayerHost (h : FVec Ideal S100000x128 .f32) (e : IVec S2x1600000 32) (Wl : FVec Ideal S128x128 .f32)
    (b : FVec Ideal S128 .f32) (Wr : FVec Ideal S128x128 .f32) : FVec Ideal S100000x128 .f32 :=
  maximumf
    (addf
      (addf (Host.dotGeneral dot_S100000x128_S128x128_S100000x128_1_0_0_1_n_n none (neighbourMean h e) Wl)
        (broadcastInDim S100000x128 ![0, 1] bcast_S1x128_S100000x128_0_1 (broadcastInDim S1x128 ![1] bcast_S128_S1x128_1 b)))
      (Host.dotGeneral dot_S100000x128_S128x128_S100000x128_1_0_0_1_n_n none h Wr))
    (broadcastInDim S100000x128 ![] bcast_S_S100000x128 (constant (F := Ideal) S_ .f32 0x00000000#32))

theorem meanLayerHost_eq (h : FVec Ideal S100000x128 .f32) (e : IVec S2x1600000 32) (Wl : FVec Ideal S128x128 .f32)
    (b : FVec Ideal S128 .f32) (Wr : FVec Ideal S128x128 .f32) : meanLayerHost h e Wl b Wr = meanLayer h e Wl b Wr :=
  host_relu_combine plain128 (neighbourMean h e) h Wl Wr b bcast_S128_S1x128_1 bcast_S1x128_S100000x128_0_1 bcast_S_S100000x128

/-- The output projection as the host prints it. -/
def outLayerHost (h : FVec Ideal S100000x128 .f32) (W : FVec Ideal S128x128 .f32) (b : FVec Ideal S128 .f32) : FVec Ideal S100000x128 .f32 :=
  addf (Host.dotGeneral dot_S100000x128_S128x128_S100000x128_1_0_0_1_n_n none h W)
    (broadcastInDim S100000x128 ![0, 1] bcast_S1x128_S100000x128_0_1 (broadcastInDim S1x128 ![1] bcast_S128_S1x128_1 b))

theorem outLayerHost_eq (h : FVec Ideal S100000x128 .f32) (W : FVec Ideal S128x128 .f32) (b : FVec Ideal S128 .f32) :
    outLayerHost h W b = outLayer h W b :=
  host_dense plain128 h W b bcast_S128_S1x128_1 bcast_S1x128_S100000x128_0_1

/-- The node states as the host prints them. -/
def nodeStatesHost (pos : FVec Ideal S100000x3 .f32) (z : IVec S100000 32) (e : IVec S2x1600000 32)
    (Win : FVec Ideal S4x128 .f32) (bin : FVec Ideal S128 .f32)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (Wout : FVec Ideal S128x128 .f32) (bout : FVec Ideal S128 .f32) : FVec Ideal S100000x128 .f32 :=
  outLayerHost (meanLayerHost (meanLayerHost (hidden0Host (nodeInput z pos) Win bin) e W1l b1 W1r) e W2l b2 W2r) Wout bout

theorem nodeStatesHost_eq (pos : FVec Ideal S100000x3 .f32) (z : IVec S100000 32) (e : IVec S2x1600000 32)
    (Win : FVec Ideal S4x128 .f32) (bin : FVec Ideal S128 .f32)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (Wout : FVec Ideal S128x128 .f32) (bout : FVec Ideal S128 .f32) :
    nodeStatesHost pos z e Win bin W1l b1 W1r W2l b2 W2r Wout bout = nodeStates pos z e Win bin W1l b1 W1r W2l b2 W2r Wout bout := by
  unfold nodeStatesHost nodeStates
  rw [hidden0Host_eq, meanLayerHost_eq, meanLayerHost_eq, outLayerHost_eq]

end Cert.Network

end
-- ==== Proof.Stretches.lean ====
/-
  The host stretches of the idealized kernel, each read from an arbitrary entry valuation `W`.

  Between its four regions @main runs plain host operations. Read at the buffers the regions take, each stretch is one
  of the network's host functions of what `W` holds at the stretch's inputs:
    * before region 0: the node input from the two node arguments, the two columns of the edge list, and the bias row
      as a [1, 128] block;
    * before regions 1 and 2: the neighbourhood mean of the previous hidden state over the edge columns, and the bias
      row as a [1, 128] block;
    * before region 3: the bias row as a [1, 128] block;
    * after region 3: the column mean of the node states.
  These are the same operations the reference prints, so each equation is by unfolding.
-/
import proofs.«119422_j16965120819430_1_alg».proof.Proof.Gen.KernelIdeal.Launch
import proofs.«119422_j16965120819430_1_alg».proof.Proof.HostFns
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.Network

variable (W : Valuation τ sig (Elt Ideal))

/-! ## Before region 0 -/

theorem nodeInput_eq :
    StableHlo.after hostOps0 W (Proc.devRef .tc main_v8)
      = nodeInput (W (Proc.devRef .tc main_arg1)) (W (Proc.devRef .tc main_arg0)) := by
  after_results_simp <;> rfl

theorem src_eq : StableHlo.after hostOps0 W (Proc.devRef .tc main_v1) = src (W (Proc.devRef .tc main_arg2)) := by
  after_results_simp <;> rfl

theorem dst_eq : StableHlo.after hostOps0 W (Proc.devRef .tc main_v3) = dst (W (Proc.devRef .tc main_arg2)) := by
  after_results_simp <;> rfl

theorem bias0_eq :
    StableHlo.after hostOps0 W (Proc.devRef .tc main_v9)
      = shapeCast S1x128 (W (Proc.devRef .tc main_arg4)) shapeCasts_S128_S1x128 := by
  after_results_simp <;> rfl

/-! ## Before region 1 -/

/-- The last four operations before region 1 (the outlined `where`): the selection between the quotient and zero. -/
theorem where1_eq :
    StableHlo.after hostOps1_1 W (Proc.devRef .tc main_v31)
      = select (broadcastInDim S100000x128 ![0, 1] bcast_S100000x1_S100000x128_0_1 (W (Proc.devRef .tc main_v26)))
          (W (Proc.devRef .tc main_v30))
          (broadcastInDim S100000x128 ![] bcast_S_S100000x128 (id (W (Proc.devRef .tc main_cst_6)))) := by
  after_results_simp <;> rfl

/-- Which nodes have an incoming edge. -/
theorem cond1_eq :
    StableHlo.after hostOps1 W (Proc.devRef .tc main_v26)
      = cmpf (F := Ideal) .ogt (inDegreeOf (W (Proc.devRef .tc main_v3)))
          (broadcastInDim S100000x1 ![] bcast_S_S100000x1 (constant (F := Ideal) S_ .f32 0x00000000#32)) := by
  after_results_simp <;> rfl

/-- The sum over the incoming edges over the in-degree (at least one). -/
theorem quot1_eq :
    StableHlo.after hostOps1 W (Proc.devRef .tc main_v30)
      = Host.divf (neighbourSumOf (W (Proc.devRef .tc main_v10)) (W (Proc.devRef .tc main_v1)) (W (Proc.devRef .tc main_v3)))
          (broadcastInDim S100000x128 ![0, 1] bcast_S100000x1_S100000x128_0_1
            (maximumf (inDegreeOf (W (Proc.devRef .tc main_v3)))
              (broadcastInDim S100000x1 ![] bcast_S_S100000x1 (constant (F := Ideal) S_ .f32 0x3F800000#32)))) := by
  after_results_simp <;> rfl

/-- The zero the selection falls back to. -/
theorem zero1_eq :
    StableHlo.after hostOps1 W (Proc.devRef .tc main_cst_6) = constant (F := Ideal) S_ .f32 0x00000000#32 := by
  after_results_simp <;> rfl

/-- The neighbourhood mean at region 1's entry. -/
theorem mean1_eq :
    StableHlo.after hostOps1_1 (StableHlo.after hostOps1 W) (Proc.devRef .tc main_v31)
      = neighbourMeanOf (W (Proc.devRef .tc main_v10)) (W (Proc.devRef .tc main_v1)) (W (Proc.devRef .tc main_v3)) := by
  rw [where1_eq, cond1_eq, quot1_eq, zero1_eq]
  rfl

theorem bias1_eq :
    StableHlo.after hostOps1_2 W (Proc.devRef .tc main_v32)
      = shapeCast S1x128 (W (Proc.devRef .tc main_arg6)) shapeCasts_S128_S1x128 := by
  after_results_simp <;> rfl

/-! ## Before region 2 -/

/-- The last four operations before region 2 (the outlined `where`): the selection between the quotient and zero. -/
theorem where2_eq :
    StableHlo.after hostOps2_1 W (Proc.devRef .tc main_v54)
      = select (broadcastInDim S100000x128 ![0, 1] bcast_S100000x1_S100000x128_0_1 (W (Proc.devRef .tc main_v49)))
          (W (Proc.devRef .tc main_v53))
          (broadcastInDim S100000x128 ![] bcast_S_S100000x128 (id (W (Proc.devRef .tc main_cst_14)))) := by
  after_results_simp <;> rfl

/-- Which nodes have an incoming edge. -/
theorem cond2_eq :
    StableHlo.after hostOps2 W (Proc.devRef .tc main_v49)
      = cmpf (F := Ideal) .ogt (inDegreeOf (W (Proc.devRef .tc main_v3)))
          (broadcastInDim S100000x1 ![] bcast_S_S100000x1 (constant (F := Ideal) S_ .f32 0x00000000#32)) := by
  after_results_simp <;> rfl

/-- The sum over the incoming edges over the in-degree (at least one). -/
theorem quot2_eq :
    StableHlo.after hostOps2 W (Proc.devRef .tc main_v53)
      = Host.divf (neighbourSumOf (W (Proc.devRef .tc main_v33)) (W (Proc.devRef .tc main_v1)) (W (Proc.devRef .tc main_v3)))
          (broadcastInDim S100000x128 ![0, 1] bcast_S100000x1_S100000x128_0_1
            (maximumf (inDegreeOf (W (Proc.devRef .tc main_v3)))
              (broadcastInDim S100000x1 ![] bcast_S_S100000x1 (constant (F := Ideal) S_ .f32 0x3F800000#32)))) := by
  after_results_simp <;> rfl

/-- The zero the selection falls back to. -/
theorem zero2_eq :
    StableHlo.after hostOps2 W (Proc.devRef .tc main_cst_14) = constant (F := Ideal) S_ .f32 0x00000000#32 := by
  after_results_simp <;> rfl

/-- The neighbourhood mean at region 2's entry. -/
theorem mean2_eq :
    StableHlo.after hostOps2_1 (StableHlo.after hostOps2 W) (Proc.devRef .tc main_v54)
      = neighbourMeanOf (W (Proc.devRef .tc main_v33)) (W (Proc.devRef .tc main_v1)) (W (Proc.devRef .tc main_v3)) := by
  rw [where2_eq, cond2_eq, quot2_eq, zero2_eq]
  rfl

theorem bias2_eq :
    StableHlo.after hostOps2_2 W (Proc.devRef .tc main_v55)
      = shapeCast S1x128 (W (Proc.devRef .tc main_arg9)) shapeCasts_S128_S1x128 := by
  after_results_simp <;> rfl

/-! ## Before region 3 -/

theorem bias3_eq :
    StableHlo.after hostOps3 W (Proc.devRef .tc main_v57)
      = shapeCast S1x128 (W (Proc.devRef .tc main_arg12)) shapeCasts_S128_S1x128 := by
  after_results_simp <;> rfl

/-! ## After region 3 -/

theorem columnMean_eq :
    StableHlo.after hostOps4 W (Proc.devRef .tc main_v61) = columnMean (W (Proc.devRef .tc main_v58)) := by
  after_results_simp <;> rfl

end Cert.KernelIdeal.Stretches

end
-- ==== Proof.KernelChain.lean ====
/-
  The idealized kernel's results as the composed function of its arguments.

  The generated frame folds the buffer contents through @main's thirteen segments (`Gen.W0` … `Gen.W13`). Walking
  that fold: a buffer no operation and no region writes keeps its contents from boundary to boundary; each host
  stretch is one of the network's host functions of its inputs (`Stretches`); each region's output array is its layer
  of the region's input arrays (`Region0` … `Region3`). Composed, the node states at the last boundary are
  `nodeStates` of the thirteen argument arrays, and the first result is their column mean.
-/
import proofs.«119422_j16965120819430_1_alg».proof.Proof.KernelRun
import proofs.«119422_j16965120819430_1_alg».proof.Proof.Region0
import proofs.«119422_j16965120819430_1_alg».proof.Proof.Region1
import proofs.«119422_j16965120819430_1_alg».proof.Proof.Region2
import proofs.«119422_j16965120819430_1_alg».proof.Proof.Region3
import proofs.«119422_j16965120819430_1_alg».proof.Proof.Stretches

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Cert.Network GraphLayers DenseLayer

/-- A stretch of host operations none of which writes the buffer leaves it as it was. -/
local macro "kept " ops:ident b:ident : term =>
  `(StableHlo.after_of_forall_not_mem (b := Proc.devRef .tc $b) _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- A length-128 row reshaped to a [1, 128] block, read at (0, q), is the row at q. -/
theorem bias_row (b : FVec Ideal S128 .f32) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_two, Shape.rowMajor_val_one]; show q.val = 0 * 128 + q.val; omega)

/-- A dense layer of equal operands, the bias given once as a [1, Q] block and once as a length-Q row. -/
theorem dense_of_eq {P K Q : Nat} {x x' : (⟨2, ![P, K]⟩ : Shape).Idx → EReal} {W W' : (⟨2, ![K, Q]⟩ : Shape).Idx → EReal}
    {b : (⟨2, ![1, Q]⟩ : Shape).Idx → EReal} {b' : (⟨1, ![Q]⟩ : Shape).Idx → EReal}
    (hx : x = x') (hW : W = W') (hb : ∀ q : Fin Q, b (ix2 (0 : Fin 1) q) = b' (ix1 q)) :
    dense x W (fun q => b (ix2 (0 : Fin 1) q)) = dense x' W' (fun q => b' (ix1 q)) := by
  subst hx hW
  exact congrArg (dense x W) (funext hb)

/-- The same for a neighbourhood-mean layer. -/
theorem combine_of_eq {P K Q : Nat} {a a' h h' : (⟨2, ![P, K]⟩ : Shape).Idx → EReal}
    {Wl Wl' Wr Wr' : (⟨2, ![K, Q]⟩ : Shape).Idx → EReal}
    {b : (⟨2, ![1, Q]⟩ : Shape).Idx → EReal} {b' : (⟨1, ![Q]⟩ : Shape).Idx → EReal}
    (ha : a = a') (hh : h = h') (hWl : Wl = Wl') (hWr : Wr = Wr') (hb : ∀ q : Fin Q, b (ix2 (0 : Fin 1) q) = b' (ix1 q)) :
    combine a h Wl Wr (fun q => b (ix2 (0 : Fin 1) q)) = combine a' h' Wl' Wr' (fun q => b' (ix1 q)) := by
  subst ha hh hWl hWr
  exact congrArg (combine a h Wl Wr) (funext hb)

variable (m : (ℓ : Loc nD τ sig) → Buf (Elt Ideal) ℓ) (ρ : Dev nD → PrngReg) (c : Dev nD)

/-! ## Buffers that keep their contents -/

/-- No operation and no region before boundary 1 writes `main_arg3`: it holds its launch contents there. -/
theorem arg3_at1 : W1 m ρ c (Proc.devRef .tc main_arg3) = (m ((c : Thread nD τ).loc main_arg3)) :=
  calc W1 m ρ c (Proc.devRef .tc main_arg3)
    _ = W0 m ρ c (Proc.devRef .tc main_arg3) := kept hostOps0 main_arg3
    _ = (m ((c : Thread nD τ).loc main_arg3)) := rfl

/-- No operation and no region before boundary 5 writes `main_arg5`: it holds its launch contents there. -/
theorem arg5_at5 : W5 m ρ c (Proc.devRef .tc main_arg5) = (m ((c : Thread nD τ).loc main_arg5)) :=
  calc W5 m ρ c (Proc.devRef .tc main_arg5)
    _ = W4 m ρ c (Proc.devRef .tc main_arg5) := kept hostOps1_2 main_arg5
    _ = W3 m ρ c (Proc.devRef .tc main_arg5) := kept hostOps1_1 main_arg5
    _ = W2 m ρ c (Proc.devRef .tc main_arg5) := kept hostOps1 main_arg5
    _ = W1 m ρ c (Proc.devRef .tc main_arg5) := W2_of_ne m ρ c main_arg5 (by decide)
    _ = W0 m ρ c (Proc.devRef .tc main_arg5) := kept hostOps0 main_arg5
    _ = (m ((c : Thread nD τ).loc main_arg5)) := rfl

/-- No operation and no region before boundary 5 writes `main_arg7`: it holds its launch contents there. -/
theorem arg7_at5 : W5 m ρ c (Proc.devRef .tc main_arg7) = (m ((c : Thread nD τ).loc main_arg7)) :=
  calc W5 m ρ c (Proc.devRef .tc main_arg7)
    _ = W4 m ρ c (Proc.devRef .tc main_arg7) := kept hostOps1_2 main_arg7
    _ = W3 m ρ c (Proc.devRef .tc main_arg7) := kept hostOps1_1 main_arg7
    _ = W2 m ρ c (Proc.devRef .tc main_arg7) := kept hostOps1 main_arg7
    _ = W1 m ρ c (Proc.devRef .tc main_arg7) := W2_of_ne m ρ c main_arg7 (by decide)
    _ = W0 m ρ c (Proc.devRef .tc main_arg7) := kept hostOps0 main_arg7
    _ = (m ((c : Thread nD τ).loc main_arg7)) := rfl

/-- No operation and no region before boundary 4 writes `main_arg6`: it holds its launch contents there. -/
theorem arg6_at4 : W4 m ρ c (Proc.devRef .tc main_arg6) = (m ((c : Thread nD τ).loc main_arg6)) :=
  calc W4 m ρ c (Proc.devRef .tc main_arg6)
    _ = W3 m ρ c (Proc.devRef .tc main_arg6) := kept hostOps1_1 main_arg6
    _ = W2 m ρ c (Proc.devRef .tc main_arg6) := kept hostOps1 main_arg6
    _ = W1 m ρ c (Proc.devRef .tc main_arg6) := W2_of_ne m ρ c main_arg6 (by decide)
    _ = W0 m ρ c (Proc.devRef .tc main_arg6) := kept hostOps0 main_arg6
    _ = (m ((c : Thread nD τ).loc main_arg6)) := rfl

/-- No operation and no region before boundary 9 writes `main_arg8`: it holds its launch contents there. -/
theorem arg8_at9 : W9 m ρ c (Proc.devRef .tc main_arg8) = (m ((c : Thread nD τ).loc main_arg8)) :=
  calc W9 m ρ c (Proc.devRef .tc main_arg8)
    _ = W8 m ρ c (Proc.devRef .tc main_arg8) := kept hostOps2_2 main_arg8
    _ = W7 m ρ c (Proc.devRef .tc main_arg8) := kept hostOps2_1 main_arg8
    _ = W6 m ρ c (Proc.devRef .tc main_arg8) := kept hostOps2 main_arg8
    _ = W5 m ρ c (Proc.devRef .tc main_arg8) := W6_of_ne m ρ c main_arg8 (by decide)
    _ = W4 m ρ c (Proc.devRef .tc main_arg8) := kept hostOps1_2 main_arg8
    _ = W3 m ρ c (Proc.devRef .tc main_arg8) := kept hostOps1_1 main_arg8
    _ = W2 m ρ c (Proc.devRef .tc main_arg8) := kept hostOps1 main_arg8
    _ = W1 m ρ c (Proc.devRef .tc main_arg8) := W2_of_ne m ρ c main_arg8 (by decide)
    _ = W0 m ρ c (Proc.devRef .tc main_arg8) := kept hostOps0 main_arg8
    _ = (m ((c : Thread nD τ).loc main_arg8)) := rfl

/-- No operation and no region before boundary 9 writes `main_arg10`: it holds its launch contents there. -/
theorem arg10_at9 : W9 m ρ c (Proc.devRef .tc main_arg10) = (m ((c : Thread nD τ).loc main_arg10)) :=
  calc W9 m ρ c (Proc.devRef .tc main_arg10)
    _ = W8 m ρ c (Proc.devRef .tc main_arg10) := kept hostOps2_2 main_arg10
    _ = W7 m ρ c (Proc.devRef .tc main_arg10) := kept hostOps2_1 main_arg10
    _ = W6 m ρ c (Proc.devRef .tc main_arg10) := kept hostOps2 main_arg10
    _ = W5 m ρ c (Proc.devRef .tc main_arg10) := W6_of_ne m ρ c main_arg10 (by decide)
    _ = W4 m ρ c (Proc.devRef .tc main_arg10) := kept hostOps1_2 main_arg10
    _ = W3 m ρ c (Proc.devRef .tc main_arg10) := kept hostOps1_1 main_arg10
    _ = W2 m ρ c (Proc.devRef .tc main_arg10) := kept hostOps1 main_arg10
    _ = W1 m ρ c (Proc.devRef .tc main_arg10) := W2_of_ne m ρ c main_arg10 (by decide)
    _ = W0 m ρ c (Proc.devRef .tc main_arg10) := kept hostOps0 main_arg10
    _ = (m ((c : Thread nD τ).loc main_arg10)) := rfl

/-- No operation and no region before boundary 8 writes `main_arg9`: it holds its launch contents there. -/
theorem arg9_at8 : W8 m ρ c (Proc.devRef .tc main_arg9) = (m ((c : Thread nD τ).loc main_arg9)) :=
  calc W8 m ρ c (Proc.devRef .tc main_arg9)
    _ = W7 m ρ c (Proc.devRef .tc main_arg9) := kept hostOps2_1 main_arg9
    _ = W6 m ρ c (Proc.devRef .tc main_arg9) := kept hostOps2 main_arg9
    _ = W5 m ρ c (Proc.devRef .tc main_arg9) := W6_of_ne m ρ c main_arg9 (by decide)
    _ = W4 m ρ c (Proc.devRef .tc main_arg9) := kept hostOps1_2 main_arg9
    _ = W3 m ρ c (Proc.devRef .tc main_arg9) := kept hostOps1_1 main_arg9
    _ = W2 m ρ c (Proc.devRef .tc main_arg9) := kept hostOps1 main_arg9
    _ = W1 m ρ c (Proc.devRef .tc main_arg9) := W2_of_ne m ρ c main_arg9 (by decide)
    _ = W0 m ρ c (Proc.devRef .tc main_arg9) := kept hostOps0 main_arg9
    _ = (m ((c : Thread nD τ).loc main_arg9)) := rfl

/-- No operation and no region before boundary 11 writes `main_arg11`: it holds its launch contents there. -/
theorem arg11_at11 : W11 m ρ c (Proc.devRef .tc main_arg11) = (m ((c : Thread nD τ).loc main_arg11)) :=
  calc W11 m ρ c (Proc.devRef .tc main_arg11)
    _ = W10 m ρ c (Proc.devRef .tc main_arg11) := kept hostOps3 main_arg11
    _ = W9 m ρ c (Proc.devRef .tc main_arg11) := W10_of_ne m ρ c main_arg11 (by decide)
    _ = W8 m ρ c (Proc.devRef .tc main_arg11) := kept hostOps2_2 main_arg11
    _ = W7 m ρ c (Proc.devRef .tc main_arg11) := kept hostOps2_1 main_arg11
    _ = W6 m ρ c (Proc.devRef .tc main_arg11) := kept hostOps2 main_arg11
    _ = W5 m ρ c (Proc.devRef .tc main_arg11) := W6_of_ne m ρ c main_arg11 (by decide)
    _ = W4 m ρ c (Proc.devRef .tc main_arg11) := kept hostOps1_2 main_arg11
    _ = W3 m ρ c (Proc.devRef .tc main_arg11) := kept hostOps1_1 main_arg11
    _ = W2 m ρ c (Proc.devRef .tc main_arg11) := kept hostOps1 main_arg11
    _ = W1 m ρ c (Proc.devRef .tc main_arg11) := W2_of_ne m ρ c main_arg11 (by decide)
    _ = W0 m ρ c (Proc.devRef .tc main_arg11) := kept hostOps0 main_arg11
    _ = (m ((c : Thread nD τ).loc main_arg11)) := rfl

/-- No operation and no region before boundary 10 writes `main_arg12`: it holds its launch contents there. -/
theorem arg12_at10 : W10 m ρ c (Proc.devRef .tc main_arg12) = (m ((c : Thread nD τ).loc main_arg12)) :=
  calc W10 m ρ c (Proc.devRef .tc main_arg12)
    _ = W9 m ρ c (Proc.devRef .tc main_arg12) := W10_of_ne m ρ c main_arg12 (by decide)
    _ = W8 m ρ c (Proc.devRef .tc main_arg12) := kept hostOps2_2 main_arg12
    _ = W7 m ρ c (Proc.devRef .tc main_arg12) := kept hostOps2_1 main_arg12
    _ = W6 m ρ c (Proc.devRef .tc main_arg12) := kept hostOps2 main_arg12
    _ = W5 m ρ c (Proc.devRef .tc main_arg12) := W6_of_ne m ρ c main_arg12 (by decide)
    _ = W4 m ρ c (Proc.devRef .tc main_arg12) := kept hostOps1_2 main_arg12
    _ = W3 m ρ c (Proc.devRef .tc main_arg12) := kept hostOps1_1 main_arg12
    _ = W2 m ρ c (Proc.devRef .tc main_arg12) := kept hostOps1 main_arg12
    _ = W1 m ρ c (Proc.devRef .tc main_arg12) := W2_of_ne m ρ c main_arg12 (by decide)
    _ = W0 m ρ c (Proc.devRef .tc main_arg12) := kept hostOps0 main_arg12
    _ = (m ((c : Thread nD τ).loc main_arg12)) := rfl

/-- The first hidden state is not written between region 0's exit and region 1's entry. -/
theorem v10_at5 : W5 m ρ c (Proc.devRef .tc main_v10) = W2 m ρ c (Proc.devRef .tc main_v10) :=
  calc W5 m ρ c (Proc.devRef .tc main_v10)
    _ = W4 m ρ c (Proc.devRef .tc main_v10) := kept hostOps1_2 main_v10
    _ = W3 m ρ c (Proc.devRef .tc main_v10) := kept hostOps1_1 main_v10
    _ = W2 m ρ c (Proc.devRef .tc main_v10) := kept hostOps1 main_v10

/-- The second hidden state is not written between region 1's exit and region 2's entry. -/
theorem v33_at9 : W9 m ρ c (Proc.devRef .tc main_v33) = W6 m ρ c (Proc.devRef .tc main_v33) :=
  calc W9 m ρ c (Proc.devRef .tc main_v33)
    _ = W8 m ρ c (Proc.devRef .tc main_v33) := kept hostOps2_2 main_v33
    _ = W7 m ρ c (Proc.devRef .tc main_v33) := kept hostOps2_1 main_v33
    _ = W6 m ρ c (Proc.devRef .tc main_v33) := kept hostOps2 main_v33

/-- The third hidden state is not written between region 2's exit and region 3's entry. -/
theorem v56_at11 : W11 m ρ c (Proc.devRef .tc main_v56) = W10 m ρ c (Proc.devRef .tc main_v56) :=
  calc W11 m ρ c (Proc.devRef .tc main_v56)
    _ = W10 m ρ c (Proc.devRef .tc main_v56) := kept hostOps3 main_v56

/-- The node states are not written after region 3's exit. -/
theorem v58_at13 : W13 m ρ c (Proc.devRef .tc main_v58) = W12 m ρ c (Proc.devRef .tc main_v58) :=
  calc W13 m ρ c (Proc.devRef .tc main_v58)
    _ = W12 m ρ c (Proc.devRef .tc main_v58) := kept hostOps4 main_v58

/-- The source column is not written by region 0. -/
theorem v1_at2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The destination column is not written by region 0. -/
theorem v3_at2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The source column is not written up to region 1's exit. -/
theorem v1_at6 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := kept hostOps1_2 main_v1
    _ = W3 m ρ c (Proc.devRef .tc main_v1) := kept hostOps1_1 main_v1
    _ = W2 m ρ c (Proc.devRef .tc main_v1) := kept hostOps1 main_v1
    _ = W1 m ρ c (Proc.devRef .tc main_v1) := W2_of_ne m ρ c main_v1 (by decide)

/-- The destination column is not written up to region 1's exit. -/
theorem v3_at6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := kept hostOps1_2 main_v3
    _ = W3 m ρ c (Proc.devRef .tc main_v3) := kept hostOps1_1 main_v3
    _ = W2 m ρ c (Proc.devRef .tc main_v3) := kept hostOps1 main_v3
    _ = W1 m ρ c (Proc.devRef .tc main_v3) := W2_of_ne m ρ c main_v3 (by decide)

/-- The first neighbourhood mean is not written by the last stretch before region 1. -/
theorem v31_at5 : W5 m ρ c (Proc.devRef .tc main_v31) = W4 m ρ c (Proc.devRef .tc main_v31) :=
  calc W5 m ρ c (Proc.devRef .tc main_v31)
    _ = W4 m ρ c (Proc.devRef .tc main_v31) := kept hostOps1_2 main_v31

/-- The second neighbourhood mean is not written by the last stretch before region 2. -/
theorem v54_at9 : W9 m ρ c (Proc.devRef .tc main_v54) = W8 m ρ c (Proc.devRef .tc main_v54) :=
  calc W9 m ρ c (Proc.devRef .tc main_v54)
    _ = W8 m ρ c (Proc.devRef .tc main_v54) := kept hostOps2_2 main_v54

/-! ## Before and through region 0 -/

/-- The node input at region 0's entry. -/
theorem v8_at1 : W1 m ρ c (Proc.devRef .tc main_v8) = nodeInput (m ((c : Thread nD τ).loc main_arg1)) (m ((c : Thread nD τ).loc main_arg0)) := Stretches.nodeInput_eq (W0 m ρ c)

/-- The edge list's source column. -/
theorem v1_at1 : W1 m ρ c (Proc.devRef .tc main_v1) = src (m ((c : Thread nD τ).loc main_arg2)) := Stretches.src_eq (W0 m ρ c)

/-- The edge list's destination column. -/
theorem v3_at1 : W1 m ρ c (Proc.devRef .tc main_v3) = dst (m ((c : Thread nD τ).loc main_arg2)) := Stretches.dst_eq (W0 m ρ c)

/-- The first bias row as a [1, 128] block. -/
theorem v9_at1 : W1 m ρ c (Proc.devRef .tc main_v9) = shapeCast S1x128 (m ((c : Thread nD τ).loc main_arg4)) shapeCasts_S128_S1x128 :=
  Stretches.bias0_eq (W0 m ρ c)

/-- That block read at (0, q) is the bias row at q. -/
theorem bias_at1 (q : Fin 128) : W1 m ρ c (Proc.devRef .tc main_v9) (ix2 (0 : Fin 1) q) = (m ((c : Thread nD τ).loc main_arg4)) (ix1 q) := by
  rw [v9_at1 m ρ c]
  exact bias_row _ q

/-- THE FIRST HIDDEN STATE, at region 0's exit. -/
theorem v10_at2 : W2 m ρ c (Proc.devRef .tc main_v10) = hidden0 (nodeInput (m ((c : Thread nD τ).loc main_arg1)) (m ((c : Thread nD τ).loc main_arg0))) (m ((c : Thread nD τ).loc main_arg3)) (m ((c : Thread nD τ).loc main_arg4)) := by
  refine (W2_arr m ρ c 3).trans ((Region0.final (V1 m ρ) c).trans ?_)
  exact congrArg relu (dense_of_eq (P := 100000) (K := 4) (Q := 128) (v8_at1 m ρ c) (arg3_at1 m ρ c) (bias_at1 m ρ c))

/-! ## Before and through region 1 -/

/-- The first neighbourhood mean, at region 1's entry. -/
theorem mean_at5 : W5 m ρ c (Proc.devRef .tc main_v31) = neighbourMean (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) := by
  refine (v31_at5 m ρ c).trans ((Stretches.mean1_eq (W2 m ρ c)).trans ?_)
  rw [v10_at2 m ρ c, v1_at2 m ρ c, v3_at2 m ρ c, v1_at1 m ρ c, v3_at1 m ρ c]
  rfl

/-- The second bias row as a [1, 128] block, at region 1's entry. -/
theorem v32_at5 : W5 m ρ c (Proc.devRef .tc main_v32) = shapeCast S1x128 (m ((c : Thread nD τ).loc main_arg6)) shapeCasts_S128_S1x128 := by
  refine (Stretches.bias1_eq (W4 m ρ c)).trans ?_
  rw [arg6_at4 m ρ c]

/-- The first hidden state, at region 1's entry. -/
theorem h0_at5 : W5 m ρ c (Proc.devRef .tc main_v10) = hidden0 (nodeInput (m ((c : Thread nD τ).loc main_arg1)) (m ((c : Thread nD τ).loc main_arg0))) (m ((c : Thread nD τ).loc main_arg3)) (m ((c : Thread nD τ).loc main_arg4)) := (v10_at5 m ρ c).trans (v10_at2 m ρ c)

/-- That block read at (0, q) is the bias row at q. -/
theorem bias_at5 (q : Fin 128) : W5 m ρ c (Proc.devRef .tc main_v32) (ix2 (0 : Fin 1) q) = (m ((c : Thread nD τ).loc main_arg6)) (ix1 q) := by
  rw [v32_at5 m ρ c]
  exact bias_row _ q

/-- THE SECOND HIDDEN STATE, at region 1's exit. -/
theorem v33_at6 : W6 m ρ c (Proc.devRef .tc main_v33) = meanLayer (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) (m ((c : Thread nD τ).loc main_arg5)) (m ((c : Thread nD τ).loc main_arg6)) (m ((c : Thread nD τ).loc main_arg7)) := by
  refine (W6_arr m ρ c 5).trans ((Region1.final (V5 m ρ) c).trans ?_)
  exact congrArg relu (combine_of_eq (P := 100000) (K := 128) (Q := 128) (mean_at5 m ρ c) (h0_at5 m ρ c) (arg5_at5 m ρ c) (arg7_at5 m ρ c) (bias_at5 m ρ c))

/-! ## Before and through region 2 -/

/-- The second neighbourhood mean, at region 2's entry. -/
theorem mean_at9 : W9 m ρ c (Proc.devRef .tc main_v54) = neighbourMean (meanLayer (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) (m ((c : Thread nD τ).loc main_arg5)) (m ((c : Thread nD τ).loc main_arg6)) (m ((c : Thread nD τ).loc main_arg7))) (m ((c : Thread nD τ).loc main_arg2)) := by
  refine (v54_at9 m ρ c).trans ((Stretches.mean2_eq (W6 m ρ c)).trans ?_)
  rw [v33_at6 m ρ c, v1_at6 m ρ c, v3_at6 m ρ c, v1_at1 m ρ c, v3_at1 m ρ c]
  rfl

/-- The third bias row as a [1, 128] block, at region 2's entry. -/
theorem v55_at9 : W9 m ρ c (Proc.devRef .tc main_v55) = shapeCast S1x128 (m ((c : Thread nD τ).loc main_arg9)) shapeCasts_S128_S1x128 := by
  refine (Stretches.bias2_eq (W8 m ρ c)).trans ?_
  rw [arg9_at8 m ρ c]

/-- The second hidden state, at region 2's entry. -/
theorem h1_at9 : W9 m ρ c (Proc.devRef .tc main_v33) = meanLayer (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) (m ((c : Thread nD τ).loc main_arg5)) (m ((c : Thread nD τ).loc main_arg6)) (m ((c : Thread nD τ).loc main_arg7)) := (v33_at9 m ρ c).trans (v33_at6 m ρ c)

/-- That block read at (0, q) is the bias row at q. -/
theorem bias_at9 (q : Fin 128) : W9 m ρ c (Proc.devRef .tc main_v55) (ix2 (0 : Fin 1) q) = (m ((c : Thread nD τ).loc main_arg9)) (ix1 q) := by
  rw [v55_at9 m ρ c]
  exact bias_row _ q

/-- THE THIRD HIDDEN STATE, at region 2's exit. -/
theorem v56_at10 : W10 m ρ c (Proc.devRef .tc main_v56) = meanLayer (meanLayer (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) (m ((c : Thread nD τ).loc main_arg10)) := by
  refine (W10_arr m ρ c 5).trans ((Region2.final (V9 m ρ) c).trans ?_)
  exact congrArg relu (combine_of_eq (P := 100000) (K := 128) (Q := 128) (mean_at9 m ρ c) (h1_at9 m ρ c) (arg8_at9 m ρ c) (arg10_at9 m ρ c) (bias_at9 m ρ c))

/-! ## Before and through region 3, and the tail -/

/-- The last bias row as a [1, 128] block, at region 3's entry. -/
theorem v57_at11 : W11 m ρ c (Proc.devRef .tc main_v57) = shapeCast S1x128 (m ((c : Thread nD τ).loc main_arg12)) shapeCasts_S128_S1x128 := by
  refine (Stretches.bias3_eq (W10 m ρ c)).trans ?_
  rw [arg12_at10 m ρ c]

/-- The third hidden state, at region 3's entry. -/
theorem h2_at11 : W11 m ρ c (Proc.devRef .tc main_v56) = meanLayer (meanLayer (hidden0 (nodeInput (m ((c : Thread nD τ).loc main_arg1)) (m ((c : Thread nD τ).loc main_arg0))) (m ((c : Thread nD τ).loc main_arg3)) (m ((c : Thread nD τ).loc main_arg4))) (m ((c : Thread nD τ).loc main_arg2)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) (m ((c : Thread nD τ).loc main_arg10)) := (v56_at11 m ρ c).trans (v56_at10 m ρ c)

/-- That block read at (0, q) is the bias row at q. -/
theorem bias_at11 (q : Fin 128) : W11 m ρ c (Proc.devRef .tc main_v57) (ix2 (0 : Fin 1) q) = (m ((c : Thread nD τ).loc main_arg12)) (ix1 q) := by
  rw [v57_at11 m ρ c]
  exact bias_row _ q

/-- The node states, at region 3's exit. -/
theorem v58_at12 : W12 m ρ c (Proc.devRef .tc main_v58) = nodeStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 3).trans ((Region3.final (V11 m ρ) c).trans ?_)
  exact dense_of_eq (P := 100000) (K := 128) (Q := 128) (h2_at11 m ρ c) (arg11_at11 m ρ c) (bias_at11 m ρ c)

/-- THE NODE STATES the kernel returns. -/
theorem nodeStates_eq : W13 m ρ c (Proc.devRef .tc main_v58) = nodeStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (v58_at13 m ρ c).trans (v58_at12 m ρ c)

/-- THE COLUMN MEAN the kernel returns. -/
theorem mean_eq : W13 m ρ c (Proc.devRef .tc main_v61) = columnMean (nodeStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (Stretches.columnMean_eq (W12 m ρ c)).trans ?_
  rw [v58_at12 m ρ c]

end Cert.KernelIdeal.Chain

end
-- ==== Proof.RefValue.lean ====
/-
  The reference's results as the composed function of its arguments.

  The reference's run ends with the node states at the composed term of its host operations, and the column mean at
  the mean of that term. Operation by operation that term IS the host's spelling of the network (`nodeStatesHost`:
  the node input, the input projection, two neighbourhood-mean layers, the output projection), which is the
  whole-array function `nodeStates`.
-/
import proofs.«119422_j16965120819430_1_alg».proof.Proof.ReferenceRun
import proofs.«119422_j16965120819430_1_alg».proof.Proof.HostFns

set_option maxRecDepth 16384

noncomputable section

namespace Cert.Network.Reference

open Cert.ReferenceIdeal Cert.ReferenceIdeal.ValueP Cert.Network
open Idealize.ShloMosaic Idealize.ShloMosaic.TcCoe Idealize.SL.Sem

variable (m : (ℓ : Loc nD τ sig) → Buf (Elt Ideal) ℓ) (c : Dev nD)

/-- The node states the reference ends with, as the function of its argument arrays. -/
theorem nodeStates_eq :
    res_main_v73 (F := Ideal) m c = nodeStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [← nodeStatesHost_eq]
  unfold res_main_v73
  rfl

/-- The column mean the reference ends with is the mean of those node states. -/
theorem mean_eq :
    res_main_v76 (F := Ideal) m c = columnMean (nodeStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  rw [← nodeStatesHost_eq]
  unfold res_main_v76
  rfl

/-- `nodeStates` of equal arguments. -/
theorem nodeStates_congr {a0 a0' : FVec Ideal S100000x3 .f32} {a1 a1' : IVec S100000 32} {a2 a2' : IVec S2x1600000 32} {a3 a3' : FVec Ideal S4x128 .f32} {a4 a4' : FVec Ideal S128 .f32} {a5 a5' : FVec Ideal S128x128 .f32} {a6 a6' : FVec Ideal S128 .f32} {a7 a7' : FVec Ideal S128x128 .f32} {a8 a8' : FVec Ideal S128x128 .f32} {a9 a9' : FVec Ideal S128 .f32} {a10 a10' : FVec Ideal S128x128 .f32} {a11 a11' : FVec Ideal S128x128 .f32} {a12 a12' : FVec Ideal S128 .f32}
    (h0 : a0' = a0) (h1 : a1' = a1) (h2 : a2' = a2) (h3 : a3' = a3) (h4 : a4' = a4) (h5 : a5' = a5) (h6 : a6' = a6) (h7 : a7' = a7) (h8 : a8' = a8) (h9 : a9' = a9) (h10 : a10' = a10) (h11 : a11' = a11) (h12 : a12' = a12) :
    nodeStates a0' a1' a2' a3' a4' a5' a6' a7' a8' a9' a10' a11' a12' = nodeStates a0 a1 a2 a3 a4 a5 a6 a7 a8 a9 a10 a11 a12 := by
  subst h0 h1 h2 h3 h4 h5 h6 h7 h8 h9 h10 h11 h12
  rfl

/-- The reference's node states, from a memory whose argument arrays are the given ones. -/
theorem nodeStates_of_args {a0 : FVec Ideal S100000x3 .f32} {a1 : IVec S100000 32} {a2 : IVec S2x1600000 32} {a3 : FVec Ideal S4x128 .f32} {a4 : FVec Ideal S128 .f32} {a5 : FVec Ideal S128x128 .f32} {a6 : FVec Ideal S128 .f32} {a7 : FVec Ideal S128x128 .f32} {a8 : FVec Ideal S128x128 .f32} {a9 : FVec Ideal S128 .f32} {a10 : FVec Ideal S128x128 .f32} {a11 : FVec Ideal S128x128 .f32} {a12 : FVec Ideal S128 .f32}
    (h0 : m ((c.tc : Thread nD τ).loc main_arg0) = a0)
    (h1 : m ((c.tc : Thread nD τ).loc main_arg1) = a1)
    (h2 : m ((c.tc : Thread nD τ).loc main_arg2) = a2)
    (h3 : m ((c.tc : Thread nD τ).loc main_arg3) = a3)
    (h4 : m ((c.tc : Thread nD τ).loc main_arg4) = a4)
    (h5 : m ((c.tc : Thread nD τ).loc main_arg5) = a5)
    (h6 : m ((c.tc : Thread nD τ).loc main_arg6) = a6)
    (h7 : m ((c.tc : Thread nD τ).loc main_arg7) = a7)
    (h8 : m ((c.tc : Thread nD τ).loc main_arg8) = a8)
    (h9 : m ((c.tc : Thread nD τ).loc main_arg9) = a9)
    (h10 : m ((c.tc : Thread nD τ).loc main_arg10) = a10)
    (h11 : m ((c.tc : Thread nD τ).loc main_arg11) = a11)
    (h12 : m ((c.tc : Thread nD τ).loc main_arg12) = a12) :
    res_main_v73 (F := Ideal) m c = nodeStates a0 a1 a2 a3 a4 a5 a6 a7 a8 a9 a10 a11 a12 :=
  (nodeStates_eq m c).trans (nodeStates_congr h0 h1 h2 h3 h4 h5 h6 h7 h8 h9 h10 h11 h12)

/-- The reference's column mean, from a memory whose argument arrays are the given ones. -/
theorem mean_of_args {a0 : FVec Ideal S100000x3 .f32} {a1 : IVec S100000 32} {a2 : IVec S2x1600000 32} {a3 : FVec Ideal S4x128 .f32} {a4 : FVec Ideal S128 .f32} {a5 : FVec Ideal S128x128 .f32} {a6 : FVec Ideal S128 .f32} {a7 : FVec Ideal S128x128 .f32} {a8 : FVec Ideal S128x128 .f32} {a9 : FVec Ideal S128 .f32} {a10 : FVec Ideal S128x128 .f32} {a11 : FVec Ideal S128x128 .f32} {a12 : FVec Ideal S128 .f32}
    (h0 : m ((c.tc : Thread nD τ).loc main_arg0) = a0)
    (h1 : m ((c.tc : Thread nD τ).loc main_arg1) = a1)
    (h2 : m ((c.tc : Thread nD τ).loc main_arg2) = a2)
    (h3 : m ((c.tc : Thread nD τ).loc main_arg3) = a3)
    (h4 : m ((c.tc : Thread nD τ).loc main_arg4) = a4)
    (h5 : m ((c.tc : Thread nD τ).loc main_arg5) = a5)
    (h6 : m ((c.tc : Thread nD τ).loc main_arg6) = a6)
    (h7 : m ((c.tc : Thread nD τ).loc main_arg7) = a7)
    (h8 : m ((c.tc : Thread nD τ).loc main_arg8) = a8)
    (h9 : m ((c.tc : Thread nD τ).loc main_arg9) = a9)
    (h10 : m ((c.tc : Thread nD τ).loc main_arg10) = a10)
    (h11 : m ((c.tc : Thread nD τ).loc main_arg11) = a11)
    (h12 : m ((c.tc : Thread nD τ).loc main_arg12) = a12) :
    res_main_v76 (F := Ideal) m c = columnMean (nodeStates a0 a1 a2 a3 a4 a5 a6 a7 a8 a9 a10 a11 a12) :=
  (mean_eq m c).trans (congrArg columnMean (nodeStates_congr h0 h1 h2 h3 h4 h5 h6 h7 h8 h9 h10 h11 h12))

end Cert.Network.Reference

end
-- ==== Proof.lean ====
/-
  A three-layer neighbourhood-mean network over 100000 nodes and 1600000 edges: the block-of-rows kernels against the
  plain reference, equal over the extended reals.

  Both programs compute, from the node arguments, the edge list and the weights,
      x  = [atomic_number / 10 | pos],                         h0 = relu (x · W_in + b_in),
      h1 = relu ((mean₁ · W1_l + b1) + h0 · W1_r),             h2 = relu ((mean₂ · W2_l + b2) + h1 · W2_r),
      node_states = h2 · W_out + b_out,                        and the mean of node_states over the nodes,
  where meanᵢ is, per node, the mean of the previous hidden rows over the node's incoming edges (zero where there are
  none). The node input, the two neighbourhood means and the final column mean are the same host operations in both
  programs. The four dense stages are, in the kernel, four grids of 20 blocks of 5000 rows, each block computed from
  the same rows of its row operands (an entry of x · W reads one row of x) with the operands rounded to bf16 first —
  the identity on extended reals — and, in the reference, whole matrix products. In the two middle stages the kernel
  adds the bias last, (a · Wl + h · Wr) + b, the reference in the middle, (a · Wl + b) + h · Wr: addition of extended
  reals is commutative and associative at the infinities too, so no finiteness of the inputs is used.

  The modules: `Layers` (the layers as whole-array functions, both spellings of each), `HostFns` (the shared host
  functions and the composed function `nodeStates`), `Region0` … `Region3` (each region's output array is its layer
  of the region's input arrays), `Stretches` (the host stretches between the regions), `KernelRun` and `KernelChain`
  (the kernel's run, and its results as `nodeStates` of the arguments and their column mean), `ReferenceRun` and
  `RefValue` (the same for the reference). The ideal pass rewrote nothing, so the kernel's idealization claim is
  trivial; the three frames are the generated frame certificates and the reference's run.
-/
import proofs.«119422_j16965120819430_1_alg».proof.Defs
import proofs.«119422_j16965120819430_1_alg».proof.Proof.Gen.Kernel
import proofs.«119422_j16965120819430_1_alg».proof.Proof.Gen.Kernel.Skeleton
import proofs.«119422_j16965120819430_1_alg».proof.Proof.Gen.Kernel.Launch
import proofs.«119422_j16965120819430_1_alg».proof.Proof.Gen.Kernel.Points
import proofs.«119422_j16965120819430_1_alg».proof.Proof.Gen.Kernel.Frame
import proofs.«119422_j16965120819430_1_alg».proof.Proof.Gen.KernelIdeal
import proofs.«119422_j16965120819430_1_alg».proof.Proof.Gen.KernelIdeal.Skeleton
import proofs.«119422_j16965120819430_1_alg».proof.Proof.Gen.KernelIdeal.Launch
import proofs.«119422_j16965120819430_1_alg».proof.Proof.Gen.KernelIdeal.Points
import proofs.«119422_j16965120819430_1_alg».proof.Proof.Gen.KernelIdeal.Frame
import proofs.«119422_j16965120819430_1_alg».proof.Proof.Gen.ReferenceIdeal
import proofs.«119422_j16965120819430_1_alg».proof.Proof.ReferenceRun
import proofs.«119422_j16965120819430_1_alg».proof.Proof.Gen.Pre_finite_inputs
import proofs.«119422_j16965120819430_1_alg».proof.Proof.KernelChain
import proofs.«119422_j16965120819430_1_alg».proof.Proof.RefValue
import Idealize.ShloMosaic.Adequacy
import Idealize.ShloMosaic.Init

set_option maxRecDepth 16384

noncomputable section

namespace Cert.Proof

open Idealize.ShloMosaic Idealize.SL.Sem Cert.Kernel

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories agreeing on the thirteen arguments both idealized programs end with the column mean and the node
    states at `columnMean (nodeStates …)` and `nodeStates …` of those arguments. -/
theorem algebraic : Cert.algebraic_KernelIdeal_ReferenceIdeal := by
  intro m ρ m' ρ' _ hagree
  refine ⟨fun c => Cert.Network.columnMean (Cert.Network.nodeStates
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))),
    fun c => Cert.Network.nodeStates
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.mean_eq m ρ c),
        (h c).2.1.trans (Cert.KernelIdeal.Chain.nodeStates_eq m ρ c), (h c).2.2⟩)
      (Cert.KernelIdeal.Results.run_results m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10, e11, e12⟩ := hagree c
      exact Cert.Network.Reference.mean_of_args m' c e0 e1 e2 e3 e4 e5 e6 e7 e8 e9 e10 e11 e12
    · obtain ⟨e0, e1, e2, e3, e4, e5, e6, e7, e8, e9, e10, e11, e12⟩ := hagree c
      exact Cert.Network.Reference.nodeStates_of_args m' c e0 e1 e2 e3 e4 e5 e6 e7 e8 e9 e10 e11 e12

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
